-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16x16 .f32) (main_arg6 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg5
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x16 .f32) (main_arg6 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 107
  | .vmem => 5
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x16, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x1, .f32⟩
  | .hbm, ⟨83, _⟩ => ⟨S3300000x16, .f32⟩
  | .hbm, ⟨84, _⟩ => ⟨S3300000x16, .f32⟩
  | .hbm, ⟨85, _⟩ => ⟨S_, .f32⟩
  | .hbm, ⟨86, _⟩ => ⟨S100000x16, .f32⟩
  | .hbm, ⟨87, _⟩ => ⟨S3300000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x16, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S100000, .f32⟩
  | .hbm, ⟨103, _⟩ => ⟨S100000x1, .f32⟩
  | .hbm, ⟨104, _⟩ => ⟨S100000x1, .f32⟩
  | .hbm, ⟨105, _⟩ => ⟨S100000x16, .f32⟩
  | .hbm, ⟨106, _⟩ => ⟨S100000x16, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v67 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x16 : Shape := ⟨2, ![16, 16]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S100000x16 : Shape := ⟨2, ![100000, 16]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩

abbrev nBuf : Space → Nat
  | .hbm => 139
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x16, .f32⟩
  | 6 => ⟨S16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S100000, .f32⟩
  | 16 => ⟨S3300000, .f32⟩
  | 17 => ⟨S100000x16, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x16, .f32⟩
  | 59 => ⟨S3300000x1, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x16, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000, .f32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000, .f32⟩
  | 126 => ⟨S_, .f32⟩
  | 127 => ⟨S100000, .f32⟩
  | _ => ⟨S100000x512, .f32⟩

abbrev hbmTy0_1 (i : Nat) : BufTy := match i % 128 with
  | 0 => ⟨S100000, .f32⟩
  | 1 => ⟨S100000x1, .f32⟩
  | 2 => ⟨S100000x16, .f32⟩
  | 3 => ⟨S100000x16, .f32⟩
  | 4 => ⟨S100000x16, .f32⟩
  | 5 => ⟨S_, .f32⟩
  | 6 => ⟨S100000, .f32⟩
  | 7 => ⟨S100000x1, .f32⟩
  | 8 => ⟨S100000x1, .f32⟩
  | 9 => ⟨S100000x16, .f32⟩
  | 10 => ⟨S100000x16, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.Lines.lean ====
/-
  The two programs as lines of host operations.

  Around its one region the kernel's program is two straight lines of host operations: the 42 operations before the region
  (the edge lists with their self loops, the degrees, their inverse square roots, the edge normalisation) run from the launch
  contents, and the 57 operations after it (both graph-convolution layers' gather, scale, scatter-add and bias, the rectifier,
  the second dense product, the log-softmax) run from the region's exit contents: the region's result array as the region
  left it, every other buffer as the first line left it. The reference is one straight line of 132 operations from its launch
  contents. Each line is in single-assignment form: every operation writes one buffer of its own, listed here in order, so each
  buffer after a line satisfies its operation's equation in the buffers after that line (LibStraightLine).

  Here: the three lines, the buffers they write, the notation for a buffer's contents after a line, the agreement of the two
  launch memories on the arguments, the arguments after the lines, and the buffers the second line finds.
-/
import proofs.«164817_j62955630625290_2_alg».proof.Proof.FrameKernelIdeal
import proofs.«164817_j62955630625290_2_alg».proof.Proof.RefLine
import proofs.«164817_j62955630625290_2_alg».proof.Proof.LibStraightLine
import Idealize.ShloMosaic.PureOps.Ideal

noncomputable section

open Idealize.ShloMosaic Idealize.ShloMosaic.TcCoe Idealize.SL.Sem Idealize.ShloMosaic.StableHlo
open Cert.LibStraightLine

namespace Cert.Proof.Lines

/-- The kernel's operations before the region, in order. -/
abbrev preOps : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]
/-- The kernel's operations after the region, in order. -/
abbrev tailOps : List (HloOp Cert.KernelIdeal.τ Cert.KernelIdeal.sig (Elt Ideal)) :=
  List.flatten [Cert.KernelIdeal.Gen.hostOps1, Cert.KernelIdeal.Gen.hostOps1_1, Cert.KernelIdeal.Gen.hostOps1_2, Cert.KernelIdeal.Gen.hostOps1_3]
/-- The reference's operations, in order. -/
abbrev refOps : List (HloOp Cert.ReferenceIdeal.τ Cert.ReferenceIdeal.sig (Elt Ideal)) := Cert.ReferenceIdeal.ValueP.ops

/-- The buffers the first line writes, in order. -/
def preW : List (Ref Cert.KernelIdeal.sig .tc) := [
    Cert.KernelIdeal.main_v0, Cert.KernelIdeal.main_v1, Cert.KernelIdeal.main_v2, Cert.KernelIdeal.main_v3, Cert.KernelIdeal.main_v4, Cert.KernelIdeal.main_v5,
    Cert.KernelIdeal.main_v6, Cert.KernelIdeal.main_cst, Cert.KernelIdeal.main_v7, Cert.KernelIdeal.main_v8, Cert.KernelIdeal.main_cst_0, Cert.KernelIdeal.main_v9,
    Cert.KernelIdeal.main_v10, Cert.KernelIdeal.main_v11, Cert.KernelIdeal.main_cst_1, Cert.KernelIdeal.main_v12, Cert.KernelIdeal.main_v13, Cert.KernelIdeal.main_v14,
    Cert.KernelIdeal.main_cst_2, Cert.KernelIdeal.main_call0_v0, Cert.KernelIdeal.main_call0_v1, Cert.KernelIdeal.main_v15, Cert.KernelIdeal.main_c, Cert.KernelIdeal.main_v16,
    Cert.KernelIdeal.main_v17, Cert.KernelIdeal.main_c_3, Cert.KernelIdeal.main_v18, Cert.KernelIdeal.main_v19, Cert.KernelIdeal.main_v20, Cert.KernelIdeal.main_v21,
    Cert.KernelIdeal.main_v22, Cert.KernelIdeal.main_v23, Cert.KernelIdeal.main_c_4, Cert.KernelIdeal.main_v24, Cert.KernelIdeal.main_v25, Cert.KernelIdeal.main_c_5,
    Cert.KernelIdeal.main_v26, Cert.KernelIdeal.main_v27, Cert.KernelIdeal.main_v28, Cert.KernelIdeal.main_v29, Cert.KernelIdeal.main_v30, Cert.KernelIdeal.main_v31 ]
/-- The buffers the second line writes, in order. -/
def tailW : List (Ref Cert.KernelIdeal.sig .tc) := [
    Cert.KernelIdeal.main_c_6, Cert.KernelIdeal.main_v33, Cert.KernelIdeal.main_v34, Cert.KernelIdeal.main_c_7, Cert.KernelIdeal.main_v35, Cert.KernelIdeal.main_v36,
    Cert.KernelIdeal.main_v37, Cert.KernelIdeal.main_v38, Cert.KernelIdeal.main_v39, Cert.KernelIdeal.main_v40, Cert.KernelIdeal.main_v41, Cert.KernelIdeal.main_v42,
    Cert.KernelIdeal.main_cst_8, Cert.KernelIdeal.main_v43, Cert.KernelIdeal.main_v44, Cert.KernelIdeal.main_v45, Cert.KernelIdeal.main_v46, Cert.KernelIdeal.main_v47,
    Cert.KernelIdeal.main_v48, Cert.KernelIdeal.main_call1_cst, Cert.KernelIdeal.main_call1_v0, Cert.KernelIdeal.main_v49, Cert.KernelIdeal.main_v50, Cert.KernelIdeal.main_c_9,
    Cert.KernelIdeal.main_v51, Cert.KernelIdeal.main_v52, Cert.KernelIdeal.main_c_10, Cert.KernelIdeal.main_v53, Cert.KernelIdeal.main_v54, Cert.KernelIdeal.main_v55,
    Cert.KernelIdeal.main_v56, Cert.KernelIdeal.main_v57, Cert.KernelIdeal.main_v58, Cert.KernelIdeal.main_v59, Cert.KernelIdeal.main_v60, Cert.KernelIdeal.main_cst_11,
    Cert.KernelIdeal.main_v61, Cert.KernelIdeal.main_v62, Cert.KernelIdeal.main_v63, Cert.KernelIdeal.main_v64, Cert.KernelIdeal.main_v65, Cert.KernelIdeal.main_v66,
    Cert.KernelIdeal.main_call2_cst, Cert.KernelIdeal.main_call2_v0, Cert.KernelIdeal.main_call2_cst_0, Cert.KernelIdeal.main_call2_v1, Cert.KernelIdeal.main_call2_v2, Cert.KernelIdeal.main_call2_v3,
    Cert.KernelIdeal.main_call2_v4, Cert.KernelIdeal.main_call2_v5, Cert.KernelIdeal.main_call2_v6, Cert.KernelIdeal.main_call2_cst_1, Cert.KernelIdeal.main_call2_v7, Cert.KernelIdeal.main_call2_v8,
    Cert.KernelIdeal.main_call2_v9, Cert.KernelIdeal.main_call2_v10, Cert.KernelIdeal.main_v67 ]
/-- The buffers the reference's line writes, in order. -/
def refW : List (Ref Cert.ReferenceIdeal.sig .tc) := [
    Cert.ReferenceIdeal.main_v0, Cert.ReferenceIdeal.main_v1, Cert.ReferenceIdeal.main_v2, Cert.ReferenceIdeal.main_v3, Cert.ReferenceIdeal.main_v4, Cert.ReferenceIdeal.main_v5,
    Cert.ReferenceIdeal.main_v6, Cert.ReferenceIdeal.main_cst, Cert.ReferenceIdeal.main_v7, Cert.ReferenceIdeal.main_v8, Cert.ReferenceIdeal.main_v9, Cert.ReferenceIdeal.main_cst_0,
    Cert.ReferenceIdeal.main_v10, Cert.ReferenceIdeal.main_v11, Cert.ReferenceIdeal.main_v12, Cert.ReferenceIdeal.main_cst_1, Cert.ReferenceIdeal.main_v13, Cert.ReferenceIdeal.main_v14,
    Cert.ReferenceIdeal.main_v15, Cert.ReferenceIdeal.main_cst_2, Cert.ReferenceIdeal.main_call0_v0, Cert.ReferenceIdeal.main_call0_v1, Cert.ReferenceIdeal.main_v16, Cert.ReferenceIdeal.main_c,
    Cert.ReferenceIdeal.main_v17, Cert.ReferenceIdeal.main_v18, Cert.ReferenceIdeal.main_c_3, Cert.ReferenceIdeal.main_v19, Cert.ReferenceIdeal.main_v20, Cert.ReferenceIdeal.main_v21,
    Cert.ReferenceIdeal.main_v22, Cert.ReferenceIdeal.main_v23, Cert.ReferenceIdeal.main_v24, Cert.ReferenceIdeal.main_c_4, Cert.ReferenceIdeal.main_v25, Cert.ReferenceIdeal.main_v26,
    Cert.ReferenceIdeal.main_c_5, Cert.ReferenceIdeal.main_v27, Cert.ReferenceIdeal.main_v28, Cert.ReferenceIdeal.main_v29, Cert.ReferenceIdeal.main_v30, Cert.ReferenceIdeal.main_v31,
    Cert.ReferenceIdeal.main_v32, Cert.ReferenceIdeal.main_c_6, Cert.ReferenceIdeal.main_v33, Cert.ReferenceIdeal.main_v34, Cert.ReferenceIdeal.main_c_7, Cert.ReferenceIdeal.main_v35,
    Cert.ReferenceIdeal.main_v36, Cert.ReferenceIdeal.main_v37, Cert.ReferenceIdeal.main_v38, Cert.ReferenceIdeal.main_v39, Cert.ReferenceIdeal.main_v40, Cert.ReferenceIdeal.main_v41,
    Cert.ReferenceIdeal.main_v42, Cert.ReferenceIdeal.main_cst_8, Cert.ReferenceIdeal.main_v43, Cert.ReferenceIdeal.main_v44, Cert.ReferenceIdeal.main_v45, Cert.ReferenceIdeal.main_v46,
    Cert.ReferenceIdeal.main_v47, Cert.ReferenceIdeal.main_v48, Cert.ReferenceIdeal.main_call1_cst, Cert.ReferenceIdeal.main_call1_v0, Cert.ReferenceIdeal.main_v49, Cert.ReferenceIdeal.main_v50,
    Cert.ReferenceIdeal.main_cst_9, Cert.ReferenceIdeal.main_v51, Cert.ReferenceIdeal.main_v52, Cert.ReferenceIdeal.main_v53, Cert.ReferenceIdeal.main_cst_10, Cert.ReferenceIdeal.main_v54,
    Cert.ReferenceIdeal.main_v55, Cert.ReferenceIdeal.main_v56, Cert.ReferenceIdeal.main_cst_11, Cert.ReferenceIdeal.main_call2_v0, Cert.ReferenceIdeal.main_call2_v1, Cert.ReferenceIdeal.main_v57,
    Cert.ReferenceIdeal.main_c_12, Cert.ReferenceIdeal.main_v58, Cert.ReferenceIdeal.main_v59, Cert.ReferenceIdeal.main_c_13, Cert.ReferenceIdeal.main_v60, Cert.ReferenceIdeal.main_v61,
    Cert.ReferenceIdeal.main_v62, Cert.ReferenceIdeal.main_v63, Cert.ReferenceIdeal.main_v64, Cert.ReferenceIdeal.main_v65, Cert.ReferenceIdeal.main_c_14, Cert.ReferenceIdeal.main_v66,
    Cert.ReferenceIdeal.main_v67, Cert.ReferenceIdeal.main_c_15, Cert.ReferenceIdeal.main_v68, Cert.ReferenceIdeal.main_v69, Cert.ReferenceIdeal.main_v70, Cert.ReferenceIdeal.main_v71,
    Cert.ReferenceIdeal.main_v72, Cert.ReferenceIdeal.main_v73, Cert.ReferenceIdeal.main_c_16, Cert.ReferenceIdeal.main_v74, Cert.ReferenceIdeal.main_v75, Cert.ReferenceIdeal.main_c_17,
    Cert.ReferenceIdeal.main_v76, Cert.ReferenceIdeal.main_v77, Cert.ReferenceIdeal.main_v78, Cert.ReferenceIdeal.main_v79, Cert.ReferenceIdeal.main_v80, Cert.ReferenceIdeal.main_v81,
    Cert.ReferenceIdeal.main_v82, Cert.ReferenceIdeal.main_v83, Cert.ReferenceIdeal.main_cst_18, Cert.ReferenceIdeal.main_v84, Cert.ReferenceIdeal.main_v85, Cert.ReferenceIdeal.main_v86,
    Cert.ReferenceIdeal.main_v87, Cert.ReferenceIdeal.main_v88, Cert.ReferenceIdeal.main_v89, Cert.ReferenceIdeal.main_call3_cst, Cert.ReferenceIdeal.main_call3_v0, Cert.ReferenceIdeal.main_call3_cst_0,
    Cert.ReferenceIdeal.main_call3_v1, Cert.ReferenceIdeal.main_call3_v2, Cert.ReferenceIdeal.main_call3_v3, Cert.ReferenceIdeal.main_call3_v4, Cert.ReferenceIdeal.main_call3_v5, Cert.ReferenceIdeal.main_call3_v6,
    Cert.ReferenceIdeal.main_call3_cst_1, Cert.ReferenceIdeal.main_call3_v7, Cert.ReferenceIdeal.main_call3_v8, Cert.ReferenceIdeal.main_call3_v9, Cert.ReferenceIdeal.main_call3_v10, Cert.ReferenceIdeal.main_v90 ]

theorem preW_are : WritesAre preOps preW := rfl
theorem tailW_are : WritesAre tailOps tailW := rfl
theorem refW_are : WritesAre refOps refW := rfl

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- What the second line starts from: the region's arrays as the region left them, every other buffer as the first line left it. -/
abbrev exitV : Valuation Cert.KernelIdeal.τ Cert.KernelIdeal.sig (Elt Ideal) :=
  Pipeline.withArrays (Cert.KernelIdeal.cfgs 0).spec c (Cert.KernelIdeal.GenP.V0 m c)
    fun w => (Cert.KernelIdeal.GenP.dats m 0 c).arrAt w (Cert.KernelIdeal.cfgs 0).N

/-- The two launch memories agree on the seven argument arrays of device c. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- A buffer after the first line, after the second line, after the reference's line. -/
local notation:max "Kp[" r "]" => after preOps (launchContents m c) (Proc.devRef Proc.tc r)
local notation:max "Kt[" r "]" => after tailOps (exitV m c) (Proc.devRef Proc.tc r)
local notation:max "Rv[" r "]" => after refOps (launchContents m' c) (Proc.devRef Proc.tc r)

/-- The region-entry contents the frame speaks of are the buffers after the first line. -/
theorem V_eq (r : Ref Cert.KernelIdeal.sig .tc) : Cert.KernelIdeal.GenP.V m c r = Kp[r] := rfl

/-- What the run leaves in a buffer the region does not stage is that buffer after the second line. -/
theorem tail_eq (r : Ref Cert.KernelIdeal.sig .tc) :
    Pipeline.afterTail₀ Cert.KernelIdeal.cfgs (Cert.KernelIdeal.GenP.dats m) 0 (Cert.KernelIdeal.GenP.V0 m)
      [Cert.KernelIdeal.Gen.hostOps1, Cert.KernelIdeal.Gen.hostOps1_1, Cert.KernelIdeal.Gen.hostOps1_2, Cert.KernelIdeal.Gen.hostOps1_3] c r = Kt[r] := rfl

/-- A buffer the first line does not write holds its launch contents. -/
theorem pre_launch (r : Ref Cert.KernelIdeal.sig .tc) (hr : r ∉ preW) :
    Kp[r] = m ((c.tc : Thread Cert.KernelIdeal.nD Cert.KernelIdeal.τ).loc r) := untouched_at preW_are hr
/-- A buffer the reference's line does not write holds its launch contents. -/
theorem ref_launch (r : Ref Cert.ReferenceIdeal.sig .tc) (hr : r ∉ refW) :
    Rv[r] = m' ((c.tc : Thread Cert.ReferenceIdeal.nD Cert.ReferenceIdeal.τ).loc r) := untouched_at refW_are hr

/-- A buffer the second line does not write, and the region does not stage, is as the first line left it. -/
theorem carry (r : Ref Cert.KernelIdeal.sig .tc) (hr : r ∉ tailW) (hne : ∀ w, Pipeline.arrRef Cert.KernelIdeal.spec0 w ≠ r) :
    Kt[r] = Kp[r] :=
  (untouched_at tailW_are hr).trans (Pipeline.withArrays_of_ne _ c _ _ r hne)

/-- The region's result array, which the second line does not write, is as the region left it. -/
theorem carry_result :
    Kt[Cert.KernelIdeal.main_v32] = (Cert.KernelIdeal.GenP.dats m 0 c).arrAt 2 Cert.KernelIdeal.cfg0.N :=
  (untouched_at tailW_are (by decide)).trans
    (Pipeline.withArrays_arr Cert.KernelIdeal.spec0 Cert.KernelIdeal.Gen.launch0.win.arr_inj c _ _ 2)

end

end Cert.Proof.Lines

end
-- ==== Proof.LibPlainDot.lean ====
/-
  The rows-times-columns matrix product `[M, K] × [K, N] → [M, N]` (the left operand contracted on its axis 1, the
  right one on its axis 0, no batch axis) read at an index, at the ideal instance where a float is an extended
  real: entry `(r, c)` is `∑ k, lhs (r, k) * rhs (k, c)`.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Proof.PlainDot

/-- The product's dimension numbers; their conditions `wf` are decided on a program's literal shapes. -/
abbrev plainDot (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section Index
variable {M K N : Nat} (wf : DotDims.WF ⟨2, ![M, K]⟩ ⟨2, ![K, N]⟩ ⟨2, ![M, N]⟩ [1] [0] [0] [1] [] [])

/-- The contraction index set is the one coordinate range `Fin K`. -/
abbrev contrEquiv : (plainDot M K N wf).contr.Idx ≃ Fin K := contrEquiv1 (plainDot M K N wf) K rfl rfl

/-- At result index `(r, c)` and contraction coordinate `k` the left operand is read at `(r, k)` … -/
theorem lhsIdx_eq (r : Fin M) (c : Fin N) (k : Fin K) :
    (plainDot M K N wf).lhsIdx (ix2 r c) ((contrEquiv wf).symm k) = ix2 r k := by
  funext a
  refine Fin.ext ?_
  match a with
  | ⟨0, _⟩ => rfl
  | ⟨1, _⟩ => rfl

/-- … and the right operand at `(k, c)`. -/
theorem rhsIdx_eq (r : Fin M) (c : Fin N) (k : Fin K) :
    (plainDot M K N wf).rhsIdx (ix2 r c) ((contrEquiv wf).symm k) = ix2 k c := by
  funext a
  refine Fin.ext ?_
  match a with
  | ⟨0, _⟩ => rfl
  | ⟨1, _⟩ => rfl

/-- THE CONTRACTION'S SUM over the contraction index set is the sum over `k : Fin K` of `lhs (r, k) * rhs (k, c)`. -/
theorem contr_sum (lhs : (⟨2, ![M, K]⟩ : Shape).Idx → EReal) (rhs : (⟨2, ![K, N]⟩ : Shape).Idx → EReal)
    (r : Fin M) (c : Fin N) :
    (∑ k : (plainDot M K N wf).contr.Idx,
        lhs ((plainDot M K N wf).lhsIdx (ix2 r c) k) * rhs ((plainDot M K N wf).rhsIdx (ix2 r c) k)) =
      ∑ k : Fin K, lhs (ix2 r k) * rhs (ix2 k c) := by
  rw [← Equiv.sum_comp (contrEquiv wf).symm]
  refine Finset.sum_congr rfl fun k _ => ?_
  rw [lhsIdx_eq, rhsIdx_eq]

end Index

section Apply
variable {M K N : Nat} {φ₁ φ₂ : FTy} (wf : DotDims.WF ⟨2, ![M, K]⟩ ⟨2, ![K, N]⟩ ⟨2, ![M, N]⟩ [1] [0] [0] [1] [] [])
  (prec : Option ContractPrecision) (lhs : FVec Ideal ⟨2, ![M, K]⟩ φ₁) (rhs : FVec Ideal ⟨2, ![K, N]⟩ φ₂)

/-- A matrix-unit product onto any accumulator, read at `(r, c)`: the accumulator there plus the sum. -/
theorem matmul_plain_apply (acc : FVec Ideal ⟨2, ![M, N]⟩ .f32) (r : Fin M) (c : Fin N) :
    FloatOps.matmul (plainDot M K N wf) prec lhs rhs acc (ix2 r c) = acc (ix2 r c) + ∑ k : Fin K, lhs (ix2 r k) * rhs (ix2 k c) := by
  rw [Ideal.matmul_apply, contr_sum]

/-- Onto the zero splat, read at `(r, c)`: the sum. -/
theorem matmul_zero_plain_apply (r : Fin M) (c : Fin N) :
    FloatOps.matmul (plainDot M K N wf) prec lhs rhs (constant ⟨2, ![M, N]⟩ .f32 0x00000000#32) (ix2 r c) =
      ∑ k : Fin K, lhs (ix2 r k) * rhs (ix2 k c) := by
  rw [Ideal.matmul_constant_zero_apply, contr_sum]

/-- The same two in the spelling a kernel body prints (`matmul d prec lhs rhs acc`). -/
theorem matmul_plain_apply' (acc : FVec Ideal ⟨2, ![M, N]⟩ .f32) (r : Fin M) (c : Fin N) :
    matmul (F := Ideal) (plainDot M K N wf) prec lhs rhs acc (ix2 r c) = acc (ix2 r c) + ∑ k : Fin K, lhs (ix2 r k) * rhs (ix2 k c) :=
  matmul_plain_apply wf prec lhs rhs acc r c
theorem matmul_zero_plain_apply' (r : Fin M) (c : Fin N) :
    matmul (F := Ideal) (plainDot M K N wf) prec lhs rhs (constant ⟨2, ![M, N]⟩ .f32 0x00000000#32) (ix2 r c) =
      ∑ k : Fin K, lhs (ix2 r k) * rhs (ix2 k c) :=
  matmul_zero_plain_apply wf prec lhs rhs r c

/-- The host's product at any schedule key, read at `(r, c)`: the sum. -/
theorem dotGeneralAt_plain_apply (sched : HostSchedule) (r : Fin M) (c : Fin N) :
    FloatOps.dotGeneral (plainDot M K N wf) prec sched lhs rhs (ix2 r c) = ∑ k : Fin K, lhs (ix2 r k) * rhs (ix2 k c) := by
  rw [Ideal.dotGeneral_apply, contr_sum]

/-- The host's product as a reference prints it, read at `(r, c)`: the sum. -/
theorem dotGeneral_plain_apply (r : Fin M) (c : Fin N) :
    Host.dotGeneral (F := Ideal) (plainDot M K N wf) prec lhs rhs (ix2 r c) = ∑ k : Fin K, lhs (ix2 r k) * rhs (ix2 k c) :=
  dotGeneralAt_plain_apply wf prec lhs rhs .single r c

end Apply

/-- A program's own record with the same lists is this one (the check that the lemmas rewrite a printed product). -/
example (d : DotDims ⟨2, ![7, 5]⟩ ⟨2, ![5, 3]⟩ ⟨2, ![7, 3]⟩)
    (hd : d = { lhsContracting := [1], rhsContracting := [0], lhsNonContracting := [0], rhsNonContracting := [1], lhsBatch := [], rhsBatch := [] })
    (l : FVec Ideal ⟨2, ![7, 5]⟩ .bf16) (rr : FVec Ideal ⟨2, ![5, 3]⟩ .bf16) (r : Fin 7) (c : Fin 3) :
    matmul (F := Ideal) d none l rr (constant ⟨2, ![7, 3]⟩ .f32 0x00000000#32) (ix2 r c) = ∑ k : Fin 5, l (ix2 r k) * rr (ix2 k c) := by
  subst hd
  rw [matmul_zero_plain_apply' (by decide)]

end Cert.Proof.PlainDot

end
-- ==== Proof.Product.lean ====
/-
  What the region leaves in its result array.

  Grid point t stages rows 5000·t … 5000·t + 4999 of x (all 512 columns) and the whole of W1, and writes back the product of
  the two staged blocks as rows 5000·t … 5000·t + 4999 of the result. Entry (p, q) of a block's product is
  Σ_k x(5000·t + p, k) · W1(k, q): rounding the operands to bf16 is the identity on extended reals, and the matrix unit's
  product into the zero accumulator is the plain sum of products. The host's product x·W1 at (5000·t + p, q) is the same
  sum, so each written block is that block of x·W1; the twenty blocks tile the 100000 rows; hence after the region the
  result array holds x·W1, the host's product of the argument arrays.
-/
import proofs.«164817_j62955630625290_2_alg».proof.Proof.FrameKernelIdeal
import proofs.«164817_j62955630625290_2_alg».proof.Proof.Gen.ReferenceIdeal
import proofs.«164817_j62955630625290_2_alg».proof.Proof.LibPlainDot
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.Proof.Product

open Cert.KernelIdeal Cert.KernelIdeal.Gen Cert.KernelIdeal.GenP

/-- The host's product x·W1, with the dimension record the reference prints for it. -/
def xw (x : FVec Ideal S100000x512 .f32) (w : FVec Ideal S512x16 .f32) : FVec Ideal S100000x16 .f32 :=
  Host.dotGeneral (F := Ideal) Cert.ReferenceIdeal.dot_S100000x512_S512x16_S100000x16_1_0_0_1_n_n none x w

/-- Entry (r, q) of x·W1 is Σ_k x(r, k) · W1(k, q). -/
theorem xw_apply (x : FVec Ideal S100000x512 .f32) (w : FVec Ideal S512x16 .f32) (r : Fin 100000) (q : Fin 16) :
    xw x w (ix2 r q) = ∑ k : Fin 512, x (ix2 r k) * w (ix2 k q) := by
  unfold xw Cert.ReferenceIdeal.dot_S100000x512_S512x16_S100000x16_1_0_0_1_n_n
  exact Cert.Proof.PlainDot.dotGeneral_plain_apply _ none x w r q

/-- Entry (p, q) of what the body stores, from the two blocks it loaded: Σ_k a(p, k) · b(k, q). -/
theorem pay_apply (a : FVec Ideal S5000x512 .f32) (b : FVec Ideal S512x16 .f32) (p : Fin 5000) (q : Fin 16) :
    k0_pay1 (F := Ideal) a b (ix2 p q) = ∑ k : Fin 512, a (ix2 p k) * b (ix2 k q) := by
  unfold k0_pay1
  show matmul (F := Ideal) dot_S5000x512_S512x16_S5000x16_1_0_0_1_n_n none a b (constant S5000x16 .f32 0x00000000#32) (ix2 p q) = _
  unfold dot_S5000x512_S512x16_S5000x16_1_0_0_1_n_n
  exact Cert.Proof.PlainDot.matmul_zero_plain_apply' _ none a b p q

variable (m : (ℓ : Loc nD τ sig) → Buf (Elt Ideal) ℓ)

theorem hz : (![0, 0] : Fin 2 → Nat) = fun _ => 0 := funext fun a => by fin_cases a <;> rfl

/-- The index maps, decided over the grid: x's and the result's blocks are block row t, W1's is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x's block at point t, read at (p, k), is x at (5000·t + p, k). -/
theorem xblock_apply (c : Dev nD) (t : Fin cfg0.N) (p : Fin 5000) (k : Fin 512) (r : Fin 100000) (hr : r.val = 5000 * t.val + p.val) :
    (iblk m c 0 t : FVec Ideal S5000x512 .f32) (ix2 p k) = (V m c main_arg0 : FVec Ideal S100000x512 .f32) (ix2 r k) := by
  obtain ⟨e0, e1, -, -, -, -⟩ := idx_facts t
  unfold iblk
  rw [View.read_apply]
  show V m c main_arg0 (((cfg0.win 0).blk t).view.emb (ix2 p k)) = V m c main_arg0 (ix2 r k)
  refine congrArg (V m c main_arg0) ?_
  funext a
  apply Fin.ext
  match a with
  | ⟨0, _⟩ => show win0_0.index t (0 : Fin 2) * 5000 + 1 * p.val = r.val; rw [e0, hr]; omega
  | ⟨1, _⟩ => show win0_0.index t (1 : Fin 2) * 512 + 1 * k.val = k.val; rw [e1]; omega

/-- W1's block at any point, read at (k, q), is W1 at (k, q). -/
theorem wblock_apply (c : Dev nD) (t : Fin cfg0.N) (k : Fin 512) (q : Fin 16) :
    (iblk m c 1 t : FVec Ideal S512x16 .f32) (ix2 k q) = (V m c main_arg3 : FVec Ideal S512x16 .f32) (ix2 k q) := by
  obtain ⟨-, -, e2, e3, -, -⟩ := idx_facts t
  unfold iblk
  rw [View.read_apply]
  show V m c main_arg3 (((cfg0.win 1).blk t).view.emb (ix2 k q)) = V m c main_arg3 (ix2 k q)
  refine congrArg (V m c main_arg3) ?_
  funext a
  apply Fin.ext
  match a with
  | ⟨0, _⟩ => show win0_1.index t (0 : Fin 2) * 512 + 1 * k.val = k.val; rw [e2]; omega
  | ⟨1, _⟩ => show win0_1.index t (1 : Fin 2) * 16 + 1 * q.val = q.val; rw [e3]; omega

/-- What point t writes back is block row t of x·W1. -/
theorem flushed_eq (c : Dev nD) (t : Fin cfg0.N) :
    (dats m 0 c).flushed 2 t = ((cfg0.win 2).blk t).view.read (Elt Ideal) (xw (V m c main_arg0) (V m c main_arg3)) := by
  show (cfg0.win 2).cut (grid0.coords t) ((dats m 0 c).after 2 t) = _
  rw [after0_2]
  unfold out0_2
  rw [View.canon_unit_zero hz]
  simp only [View.ld_unit_zero (S := S5000x512) hz, View.ld_unit_zero (S := S512x16) hz]
  obtain ⟨-, -, -, -, e4, e5⟩ := idx_facts t
  have hN : cfg0.N = 20 := N_0
  have ht : t.val < 20 := hN ▸ t.isLt
  funext y
  obtain ⟨p, q, rfl⟩ : ∃ (p : Fin 5000) (q : Fin 16), y = ix2 p q := ⟨y 0, y 1, eq_ix2 y⟩
  have hemb : ((cfg0.win 2).blk t).view.emb (ix2 p q) = ix2 (⟨5000 * t.val + p.val, by omega⟩ : Fin 100000) q := by
    funext a
    apply Fin.ext
    match a with
    | ⟨0, _⟩ => show win0_2.index t (0 : Fin 2) * 5000 + 1 * p.val = 5000 * t.val + p.val; rw [e4]; omega
    | ⟨1, _⟩ => show win0_2.index t (1 : Fin 2) * 16 + 1 * q.val = q.val; rw [e5]; omega
  show k0_pay1 (F := Ideal) (iblk m c 0 t) (iblk m c 1 t) (ix2 p q) = xw (V m c main_arg0) (V m c main_arg3) (((cfg0.win 2).blk t).view.emb (ix2 p q))
  rw [hemb, xw_apply]
  refine (pay_apply _ _ p q).trans ?_
  exact Finset.sum_congr rfl fun k _ => by
    rw [xblock_apply m c t p k (⟨5000 * t.val + p.val, by omega⟩ : Fin 100000) rfl, wblock_apply m c t k q]

/-- An index of the result array is in point t's block iff each coordinate is in the block's range on its axis. -/
theorem mem_blk (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v32).slice (win0_2.rect t)).set ↔ _
  rw [View.set_slice_whole, Rect.mem_set_unit]
  exact Iff.rfl

/-- The twenty row blocks tile the result: row r lies in the block of point r / 5000, and every point writes its block back. -/
theorem cover (i : S100000x16.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  have hlt : (i 0).val / 5000 < cfg0.N := by rw [hN]; omega
  obtain ⟨-, -, -, -, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ (1 : Fin 2) * 16 ≤ (i 1).val ∧ (i 1).val < win0_2.index ⟨(i 0).val / 5000, hlt⟩ (1 : Fin 2) * 16 + 16
    rw [e5]; omega

/-- The result array after the region: the host's product of x and W1 as the region found them. -/
theorem final (c : Dev nD) : (dats m 0 c).arrAt 2 cfg0.N = xw (V m c main_arg0) (V m c main_arg3) :=
  (dats m 0 c).arrAt_eq_of_cover 2 (xw (V m c main_arg0) (V m c main_arg3)) (fun t _ => flushed_eq m c t) cover

end Cert.Proof.Product

end
-- ==== Proof.StepsA.lean ====
/-
  The kernel's first line against the reference, operation by operation.

  The 42 operations before the region are, in order and with the same functions, the reference's operations 0 to 9 (the
  edge lists with their self loops, the edge weights with the loops' ones) and 11 to 42 (the degrees by scatter-add, their
  inverse square roots where positive, the normalisation dinv[row]·w·dinv[col]); the reference's operation 10 is its product
  x·W1, which the kernel computes in its region. Each equation says: the buffer a kernel operation writes and the buffer its
  counterpart writes hold the same array, because the two operations are one function and their operands are already known
  equal. The arguments come first: neither line writes them, and the launch memories agree on them.
-/
import proofs.«164817_j62955630625290_2_alg».proof.Proof.Lines

noncomputable section

open Idealize.ShloMosaic Idealize.ShloMosaic.TcCoe Idealize.SL.Sem Idealize.ShloMosaic.StableHlo
open Cert.LibStraightLine

namespace Cert.Proof.Lines

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

-- an operation of a line is recognised as the builder's application it is written as, its function read off as it stands
attribute [local irreducible] StableHlo.nullary StableHlo.unary StableHlo.binary StableHlo.ternary StableHlo.reshape

local notation:max "Kp[" r "]" => after preOps (launchContents m c) (Proc.devRef Proc.tc r)
local notation:max "Kt[" r "]" => after tailOps (exitV m c) (Proc.devRef Proc.tc r)
local notation:max "Rv[" r "]" => after refOps (launchContents m' c) (Proc.devRef Proc.tc r)

theorem a_main_arg0 (hag : Agree m m' c) : Kp[Cert.KernelIdeal.main_arg0] = Rv[Cert.ReferenceIdeal.main_arg0] :=
  (pre_launch m c _ (by decide)).trans (hag.a0.symm.trans (ref_launch m' c _ (by decide)).symm)
theorem a_main_arg1 (hag : Agree m m' c) : Kp[Cert.KernelIdeal.main_arg1] = Rv[Cert.ReferenceIdeal.main_arg1] :=
  (pre_launch m c _ (by decide)).trans (hag.a1.symm.trans (ref_launch m' c _ (by decide)).symm)
theorem a_main_arg2 (hag : Agree m m' c) : Kp[Cert.KernelIdeal.main_arg2] = Rv[Cert.ReferenceIdeal.main_arg2] :=
  (pre_launch m c _ (by decide)).trans (hag.a2.symm.trans (ref_launch m' c _ (by decide)).symm)
theorem a_main_arg3 (hag : Agree m m' c) : Kp[Cert.KernelIdeal.main_arg3] = Rv[Cert.ReferenceIdeal.main_arg3] :=
  (pre_launch m c _ (by decide)).trans (hag.a3.symm.trans (ref_launch m' c _ (by decide)).symm)
theorem a_main_arg4 (hag : Agree m m' c) : Kp[Cert.KernelIdeal.main_arg4] = Rv[Cert.ReferenceIdeal.main_arg4] :=
  (pre_launch m c _ (by decide)).trans (hag.a4.symm.trans (ref_launch m' c _ (by decide)).symm)
theorem a_main_arg5 (hag : Agree m m' c) : Kp[Cert.KernelIdeal.main_arg5] = Rv[Cert.ReferenceIdeal.main_arg5] :=
  (pre_launch m c _ (by decide)).trans (hag.a5.symm.trans (ref_launch m' c _ (by decide)).symm)
theorem a_main_arg6 (hag : Agree m m' c) : Kp[Cert.KernelIdeal.main_arg6] = Rv[Cert.ReferenceIdeal.main_arg6] :=
  (pre_launch m c _ (by decide)).trans (hag.a6.symm.trans (ref_launch m' c _ (by decide)).symm)

theorem a_main_v0 (hag : Agree m m' c) : Kp[Cert.KernelIdeal.main_v0] = Rv[Cert.ReferenceIdeal.main_v0] := by
  refine (nullary_at (ops := preOps) (y := Cert.KernelIdeal.main_v0) (hy := ⟨by decide, by rfl⟩) 0 (by decide) rfl (not_written preW_are _ (by decide))).trans
    (Eq.trans ?_ (nullary_at (ops := refOps) (y := Cert.ReferenceIdeal.main_v0) (hy := ⟨by decide, by rfl⟩) 0 (by decide) rfl (not_written refW_are _ (by decide))).symm)
  rfl
theorem a_main_v1 (hag : Agree m m' c) : Kp[Cert.KernelIdeal.main_v1] = Rv[Cert.ReferenceIdeal.main_v1] := by
  refine (unary_at (ops := preOps) (x := Cert.KernelIdeal.main_arg1) (y := Cert.KernelIdeal.main_v1) (hx := ⟨by decide, by rfl⟩) (hy := ⟨by decide, by rfl⟩) 1 (by decide) rfl (not_written preW_are _ (by decide)) (not_written preW_are _ (by decide))).trans
    (Eq.trans ?_ (unary_at (ops := refOps) (x := Cert.ReferenceIdeal.main_arg1) (y := Cert.ReferenceIdeal.main_v1) (hx := ⟨by decide, by rfl⟩) (hy := ⟨by decide, by rfl⟩) 1 (by decide) rfl (not_written refW_are _ (by decide)) (not_written refW_are _ (by decide))).symm)
  rw [a_main_arg1 m m' c hag] <;> rfl
theorem a_main_v2 (hag : Agree m m' c) : Kp[Cert.KernelIdeal.main_v2] = Rv[Cert.ReferenceIdeal.main_v2] := by
  refine (reshape_at (ops := preOps) (x := Cert.KernelIdeal.main_v1) (y := Cert.KernelIdeal.main_v2) (he := by rfl) (hn := by decide) (hx := ⟨by decide, by rfl⟩) (hy := ⟨by decide, by rfl⟩) 2 (by decide) rfl (not_written preW_are _ (by decide)) (not_written preW_are _ (by decide))).trans
    (Eq.trans ?_ (reshape_at (ops := refOps) (x := Cert.ReferenceIdeal.main_v1) (y := Cert.ReferenceIdeal.main_v2) (he := by rfl) (hn := by decide) (hx := ⟨by decide, by rfl⟩) (hy := ⟨by decide, by rfl⟩) 2 (by decide) rfl (not_written refW_are _ (by decide)) (not_written refW_are _ (by decide))).symm)
  rw [a_main_v1 m m' c hag] <;> rfl
theorem a_main_v3 (hag : Agree m m' c) : Kp[Cert.KernelIdeal.main_v3] = Rv[Cert.ReferenceIdeal.main_v3] := by
  refine (binary_at (ops := preOps) (a := Cert.KernelIdeal.main_v2) (b := Cert.KernelIdeal.main_v0) (y := Cert.KernelIdeal.main_v3) (ha := ⟨by decide, by rfl⟩) (hb := ⟨by decide, by rfl⟩) (hy := ⟨by decide, by rfl⟩) 3 (by decide) rfl (not_written preW_are _ (by decide)) (not_written preW_are _ (by decide)) (not_written preW_are _ (by decide))).trans
    (Eq.trans ?_ (binary_at (ops := refOps) (a := Cert.ReferenceIdeal.main_v2) (b := Cert.ReferenceIdeal.main_v0) (y := Cert.ReferenceIdeal.main_v3) (ha := ⟨by decide, by rfl⟩) (hb := ⟨by decide, by rfl⟩) (hy := ⟨by decide, by rfl⟩) 3 (by decide) rfl (not_written refW_are _ (by decide)) (not_written refW_are _ (by decide)) (not_written refW_are _ (by decide))).symm)
  rw [a_main_v2 m m' c hag, a_main_v0 m m' c hag] <;> rfl
theorem a_main_v4 (hag : Agree m m' c) : Kp[Cert.KernelIdeal.main_v4] = Rv[Cert.ReferenceIdeal.main_v4] := by
  refine (unary_at (ops := preOps) (x := Cert.KernelIdeal.main_arg1) (y := Cert.KernelIdeal.main_v4) (hx := ⟨by decide, by rfl⟩) (hy := ⟨by decide, by rfl⟩) 4 (by decide) rfl (not_written preW_are _ (by decide)) (not_written preW_are _ (by decide))).trans
    (Eq.trans ?_ (unary_at (ops := refOps) (x := Cert.ReferenceIdeal.main_arg1) (y := Cert.ReferenceIdeal.main_v4) (hx := ⟨by decide, by rfl⟩) (hy := ⟨by decide, by rfl⟩) 4 (by decide) rfl (not_written refW_are _ (by decide)) (not_written refW_are _ (by decide))).symm)
  rw [a_main_arg1 m m' c hag] <;> rfl
theorem a_main_v5 (hag : Agree m m' c) : Kp[Cert.KernelIdeal.main_v5] = Rv[Cert.ReferenceIdeal.main_v5] := by
  refine (reshape_at (ops := preOps) (x := Cert.KernelIdeal.main_v4) (y := Cert.KernelIdeal.main_v5) (he := by rfl) (hn := by decide) (hx := ⟨by decide, by rfl⟩) (hy := ⟨by decide, by rfl⟩) 5 (by decide) rfl (not_written preW_are _ (by decide)) (not_written preW_are _ (by decide))).trans
    (Eq.trans ?_ (reshape_at (ops := refOps) (x := Cert.ReferenceIdeal.main_v4) (y := Cert.ReferenceIdeal.main_v5) (he := by rfl) (hn := by decide) (hx := ⟨by decide, by rfl⟩) (hy := ⟨by decide, by rfl⟩) 5 (by decide) rfl (not_written refW_are _ (by decide)) (not_written refW_are _ (by decide))).symm)
  rw [a_main_v4 m m' c hag] <;> rfl
theorem a_main_v6 (hag : Agree m m' c) : Kp[Cert.KernelIdeal.main_v6] = Rv[Cert.ReferenceIdeal.main_v6] := by
  refine (binary_at (ops := preOps) (a := Cert.KernelIdeal.main_v5) (b := Cert.KernelIdeal.main_v0) (y := Cert.KernelIdeal.main_v6) (ha := ⟨by decide, by rfl⟩) (hb := ⟨by decide, by rfl⟩) (hy := ⟨by decide, by rfl⟩) 6 (by decide) rfl (not_written preW_are _ (by decide)) (not_written preW_are _ (by decide)) (not_written preW_are _ (by decide))).trans
    (Eq.trans ?_ (binary_at (ops := refOps) (a := Cert.ReferenceIdeal.main_v5) (b := Cert.ReferenceIdeal.main_v0) (y := Cert.ReferenceIdeal.main_v6) (ha := ⟨by decide, by rfl⟩) (hb := ⟨by decide, by rfl⟩) (hy := ⟨by decide, by rfl⟩) 6 (by decide) rfl (not_written refW_are _ (by decide)) (not_written refW_are _ (by decide)) (not_written refW_are _ (by decide))).symm)
  rw [a_main_v5 m m' c hag, a_main_v0 m m' c hag] <;> rfl
theorem a_main_cst (hag : Agree m m' c) : Kp[Cert.KernelIdeal.main_cst] = Rv[Cert.ReferenceIdeal.main_cst] := by
  refine (nullary_at (ops := preOps) (y := Cert.KernelIdeal.main_cst) (hy := ⟨by decide, by rfl⟩) 7 (by decide) rfl (not_written preW_are _ (by decide))).trans
    (Eq.trans ?_ (nullary_at (ops := refOps) (y := Cert.ReferenceIdeal.main_cst) (hy := ⟨by decide, by rfl⟩) 7 (by decide) rfl (not_written refW_are _ (by decide))).symm)
  rfl
theorem a_main_v7 (hag : Agree m m' c) : Kp[Cert.KernelIdeal.main_v7] = Rv[Cert.ReferenceIdeal.main_v7] := by
  refine (unary_at (ops := preOps) (x := Cert.KernelIdeal.main_cst) (y := Cert.KernelIdeal.main_v7) (hx := ⟨by decide, by rfl⟩) (hy := ⟨by decide, by rfl⟩) 8 (by decide) rfl (not_written preW_are _ (by decide)) (not_written preW_are _ (by decide))).trans
    (Eq.trans ?_ (unary_at (ops := refOps) (x := Cert.ReferenceIdeal.main_cst) (y := Cert.ReferenceIdeal.main_v7) (hx := ⟨by decide, by rfl⟩) (hy := ⟨by decide, by rfl⟩) 8 (by decide) rfl (not_written refW_are _ (by decide)) (not_written refW_are _ (by decide))).symm)
  rw [a_main_cst m m' c hag] <;> rfl
theorem a_main_v8 (hag : Agree m m' c) : Kp[Cert.KernelIdeal.main_v8] = Rv[Cert.ReferenceIdeal.main_v8] := by
  refine (binary_at (ops := preOps) (a := Cert.KernelIdeal.main_arg2) (b := Cert.KernelIdeal.main_v7) (y := Cert.KernelIdeal.main_v8) (ha := ⟨by decide, by rfl⟩) (hb := ⟨by decide, by rfl⟩) (hy := ⟨by decide, by rfl⟩) 9 (by decide) rfl (not_written preW_are _ (by decide)) (not_written preW_are _ (by decide)) (not_written preW_are _ (by decide))).trans
    (Eq.trans ?_ (binary_at (ops := refOps) (a := Cert.ReferenceIdeal.main_arg2) (b := Cert.ReferenceIdeal.main_v7) (y := Cert.ReferenceIdeal.main_v8) (ha := ⟨by decide, by rfl⟩) (hb := ⟨by decide, by rfl⟩) (hy := ⟨by decide, by rfl⟩) 9 (by decide) rfl (not_written refW_are _ (by decide)) (not_written refW_are _ (by decide)) (not_written refW_are _ (by decide))).symm)
  rw [a_main_arg2 m m' c hag, a_main_v7 m m' c hag] <;> rfl
theorem a_main_cst_0 (hag : Agree m m' c) : Kp[Cert.KernelIdeal.main_cst_0] = Rv[Cert.ReferenceIdeal.main_cst_0] := by
  refine (nullary_at (ops := preOps) (y := Cert.KernelIdeal.main_cst_0) (hy := ⟨by decide, by rfl⟩) 10 (by decide) rfl (not_written preW_are _ (by decide))).trans
    (Eq.trans ?_ (nullary_at (ops := refOps) (y := Cert.ReferenceIdeal.main_cst_0) (hy := ⟨by decide, by rfl⟩) 11 (by decide) rfl (not_written refW_are _ (by decide))).symm)
  rfl
theorem a_main_v9 (hag : Agree m m' c) : Kp[Cert.KernelIdeal.main_v9] = Rv[Cert.ReferenceIdeal.main_v10] := by
  refine (unary_at (ops := preOps) (x := Cert.KernelIdeal.main_cst_0) (y := Cert.KernelIdeal.main_v9) (hx := ⟨by decide, by rfl⟩) (hy := ⟨by decide, by rfl⟩) 11 (by decide) rfl (not_written preW_are _ (by decide)) (not_written preW_are _ (by decide))).trans
    (Eq.trans ?_ (unary_at (ops := refOps) (x := Cert.ReferenceIdeal.main_cst_0) (y := Cert.ReferenceIdeal.main_v10) (hx := ⟨by decide, by rfl⟩) (hy := ⟨by decide, by rfl⟩) 12 (by decide) rfl (not_written refW_are _ (by decide)) (not_written refW_are _ (by decide))).symm)
  rw [a_main_cst_0 m m' c hag] <;> rfl
theorem a_main_v10 (hag : Agree m m' c) : Kp[Cert.KernelIdeal.main_v10] = Rv[Cert.ReferenceIdeal.main_v11] := by
  refine (unary_at (ops := preOps) (x := Cert.KernelIdeal.main_v6) (y := Cert.KernelIdeal.main_v10) (hx := ⟨by decide, by rfl⟩) (hy := ⟨by decide, by rfl⟩) 12 (by decide) rfl (not_written preW_are _ (by decide)) (not_written preW_are _ (by decide))).trans
    (Eq.trans ?_ (unary_at (ops := refOps) (x := Cert.ReferenceIdeal.main_v6) (y := Cert.ReferenceIdeal.main_v11) (hx := ⟨by decide, by rfl⟩) (hy := ⟨by decide, by rfl⟩) 13 (by decide) rfl (not_written refW_are _ (by decide)) (not_written refW_are _ (by decide))).symm)
  rw [a_main_v6 m m' c hag] <;> rfl
theorem a_main_v11 (hag : Agree m m' c) : Kp[Cert.KernelIdeal.main_v11] = Rv[Cert.ReferenceIdeal.main_v12] := by
  refine (ternary_at (ops := preOps) (c := Cert.KernelIdeal.main_v9) (a := Cert.KernelIdeal.main_v10) (b := Cert.KernelIdeal.main_v8) (y := Cert.KernelIdeal.main_v11) (hc := ⟨by decide, by rfl⟩) (ha := ⟨by decide, by rfl⟩) (hb := ⟨by decide, by rfl⟩) (hy := ⟨by decide, by rfl⟩) 13 (by decide) rfl (not_written preW_are _ (by decide)) (not_written preW_are _ (by decide)) (not_written preW_are _ (by decide)) (not_written preW_are _ (by decide))).trans
    (Eq.trans ?_ (ternary_at (ops := refOps) (c := Cert.ReferenceIdeal.main_v10) (a := Cert.ReferenceIdeal.main_v11) (b := Cert.ReferenceIdeal.main_v8) (y := Cert.ReferenceIdeal.main_v12) (hc := ⟨by decide, by rfl⟩) (ha := ⟨by decide, by rfl⟩) (hb := ⟨by decide, by rfl⟩) (hy := ⟨by decide, by rfl⟩) 14 (by decide) rfl (not_written refW_are _ (by decide)) (not_written refW_are _ (by decide)) (not_written refW_are _ (by decide)) (not_written refW_are _ (by decide))).symm)
  rw [a_main_v9 m m' c hag, a_main_v10 m m' c hag, a_main_v8 m m' c hag] <;> rfl
theorem a_main_cst_1 (hag : Agree m m' c) : Kp[Cert.KernelIdeal.main_cst_1] = Rv[Cert.ReferenceIdeal.main_cst_1] := by
  refine (nullary_at (ops := preOps) (y := Cert.KernelIdeal.main_cst_1) (hy := ⟨by decide, by rfl⟩) 14 (by decide) rfl (not_written preW_are _ (by decide))).trans
    (Eq.trans ?_ (nullary_at (ops := refOps) (y := Cert.ReferenceIdeal.main_cst_1) (hy := ⟨by decide, by rfl⟩) 15 (by decide) rfl (not_written refW_are _ (by decide))).symm)
  rfl
theorem a_main_v12 (hag : Agree m m' c) : Kp[Cert.KernelIdeal.main_v12] = Rv[Cert.ReferenceIdeal.main_v13] := by
  refine (unary_at (ops := preOps) (x := Cert.KernelIdeal.main_cst_1) (y := Cert.KernelIdeal.main_v12) (hx := ⟨by decide, by rfl⟩) (hy := ⟨by decide, by rfl⟩) 15 (by decide) rfl (not_written preW_are _ (by decide)) (not_written preW_are _ (by decide))).trans
    (Eq.trans ?_ (unary_at (ops := refOps) (x := Cert.ReferenceIdeal.main_cst_1) (y := Cert.ReferenceIdeal.main_v13) (hx := ⟨by decide, by rfl⟩) (hy := ⟨by decide, by rfl⟩) 16 (by decide) rfl (not_written refW_are _ (by decide)) (not_written refW_are _ (by decide))).symm)
  rw [a_main_cst_1 m m' c hag] <;> rfl
theorem a_main_v13 (hag : Agree m m' c) : Kp[Cert.KernelIdeal.main_v13] = Rv[Cert.ReferenceIdeal.main_v14] := by
  refine (binary_at (ops := preOps) (a := Cert.KernelIdeal.main_v11) (b := Cert.KernelIdeal.main_v12) (y := Cert.KernelIdeal.main_v13) (ha := ⟨by decide, by rfl⟩) (hb := ⟨by decide, by rfl⟩) (hy := ⟨by decide, by rfl⟩) 16 (by decide) rfl (not_written preW_are _ (by decide)) (not_written preW_are _ (by decide)) (not_written preW_are _ (by decide))).trans
    (Eq.trans ?_ (binary_at (ops := refOps) (a := Cert.ReferenceIdeal.main_v12) (b := Cert.ReferenceIdeal.main_v13) (y := Cert.ReferenceIdeal.main_v14) (ha := ⟨by decide, by rfl⟩) (hb := ⟨by decide, by rfl⟩) (hy := ⟨by decide, by rfl⟩) 17 (by decide) rfl (not_written refW_are _ (by decide)) (not_written refW_are _ (by decide)) (not_written refW_are _ (by decide))).symm)
  rw [a_main_v11 m m' c hag, a_main_v12 m m' c hag] <;> rfl
theorem a_main_v14 (hag : Agree m m' c) : Kp[Cert.KernelIdeal.main_v14] = Rv[Cert.ReferenceIdeal.main_v15] := by
  refine (unary_at (ops := preOps) (x := Cert.KernelIdeal.main_v11) (y := Cert.KernelIdeal.main_v14) (hx := ⟨by decide, by rfl⟩) (hy := ⟨by decide, by rfl⟩) 17 (by decide) rfl (not_written preW_are _ (by decide)) (not_written preW_are _ (by decide))).trans
    (Eq.trans ?_ (unary_at (ops := refOps) (x := Cert.ReferenceIdeal.main_v12) (y := Cert.ReferenceIdeal.main_v15) (hx := ⟨by decide, by rfl⟩) (hy := ⟨by decide, by rfl⟩) 18 (by decide) rfl (not_written refW_are _ (by decide)) (not_written refW_are _ (by decide))).symm)
  rw [a_main_v11 m m' c hag] <;> rfl
theorem a_main_cst_2 (hag : Agree m m' c) : Kp[Cert.KernelIdeal.main_cst_2] = Rv[Cert.ReferenceIdeal.main_cst_2] := by
  refine (nullary_at (ops := preOps) (y := Cert.KernelIdeal.main_cst_2) (hy := ⟨by decide, by rfl⟩) 18 (by decide) rfl (not_written preW_are _ (by decide))).trans
    (Eq.trans ?_ (nullary_at (ops := refOps) (y := Cert.ReferenceIdeal.main_cst_2) (hy := ⟨by decide, by rfl⟩) 19 (by decide) rfl (not_written refW_are _ (by decide))).symm)
  rfl
theorem a_main_call0_v0 (hag : Agree m m' c) : Kp[Cert.KernelIdeal.main_call0_v0] = Rv[Cert.ReferenceIdeal.main_call0_v0] := by
  refine (unary_at (ops := preOps) (x := Cert.KernelIdeal.main_cst_2) (y := Cert.KernelIdeal.main_call0_v0) (hx := ⟨by decide, by rfl⟩) (hy := ⟨by decide, by rfl⟩) 19 (by decide) rfl (not_written preW_are _ (by decide)) (not_written preW_are _ (by decide))).trans
    (Eq.trans ?_ (unary_at (ops := refOps) (x := Cert.ReferenceIdeal.main_cst_2) (y := Cert.ReferenceIdeal.main_call0_v0) (hx := ⟨by decide, by rfl⟩) (hy := ⟨by decide, by rfl⟩) 20 (by decide) rfl (not_written refW_are _ (by decide)) (not_written refW_are _ (by decide))).symm)
  rw [a_main_cst_2 m m' c hag] <;> rfl
theorem a_main_call0_v1 (hag : Agree m m' c) : Kp[Cert.KernelIdeal.main_call0_v1] = Rv[Cert.ReferenceIdeal.main_call0_v1] := by
  refine (unary_at (ops := preOps) (x := Cert.KernelIdeal.main_call0_v0) (y := Cert.KernelIdeal.main_call0_v1) (hx := ⟨by decide, by rfl⟩) (hy := ⟨by decide, by rfl⟩) 20 (by decide) rfl (not_written preW_are _ (by decide)) (not_written preW_are _ (by decide))).trans
    (Eq.trans ?_ (unary_at (ops := refOps) (x := Cert.ReferenceIdeal.main_call0_v0) (y := Cert.ReferenceIdeal.main_call0_v1) (hx := ⟨by decide, by rfl⟩) (hy := ⟨by decide, by rfl⟩) 21 (by decide) rfl (not_written refW_are _ (by decide)) (not_written refW_are _ (by decide))).symm)
  rw [a_main_call0_v0 m m' c hag] <;> rfl
theorem a_main_v15 (hag : Agree m m' c) : Kp[Cert.KernelIdeal.main_v15] = Rv[Cert.ReferenceIdeal.main_v16] := by
  refine (ternary_at (ops := preOps) (c := Cert.KernelIdeal.main_v13) (a := Cert.KernelIdeal.main_v14) (b := Cert.KernelIdeal.main_call0_v1) (y := Cert.KernelIdeal.main_v15) (hc := ⟨by decide, by rfl⟩) (ha := ⟨by decide, by rfl⟩) (hb := ⟨by decide, by rfl⟩) (hy := ⟨by decide, by rfl⟩) 21 (by decide) rfl (not_written preW_are _ (by decide)) (not_written preW_are _ (by decide)) (not_written preW_are _ (by decide)) (not_written preW_are _ (by decide))).trans
    (Eq.trans ?_ (ternary_at (ops := refOps) (c := Cert.ReferenceIdeal.main_v14) (a := Cert.ReferenceIdeal.main_v15) (b := Cert.ReferenceIdeal.main_call0_v1) (y := Cert.ReferenceIdeal.main_v16) (hc := ⟨by decide, by rfl⟩) (ha := ⟨by decide, by rfl⟩) (hb := ⟨by decide, by rfl⟩) (hy := ⟨by decide, by rfl⟩) 22 (by decide) rfl (not_written refW_are _ (by decide)) (not_written refW_are _ (by decide)) (not_written refW_are _ (by decide)) (not_written refW_are _ (by decide))).symm)
  rw [a_main_v13 m m' c hag, a_main_v14 m m' c hag, a_main_call0_v1 m m' c hag] <;> rfl
theorem a_main_c (hag : Agree m m' c) : Kp[Cert.KernelIdeal.main_c] = Rv[Cert.ReferenceIdeal.main_c] := by
  refine (nullary_at (ops := preOps) (y := Cert.KernelIdeal.main_c) (hy := ⟨by decide, by rfl⟩) 22 (by decide) rfl (not_written preW_are _ (by decide))).trans
    (Eq.trans ?_ (nullary_at (ops := refOps) (y := Cert.ReferenceIdeal.main_c) (hy := ⟨by decide, by rfl⟩) 23 (by decide) rfl (not_written refW_are _ (by decide))).symm)
  rfl
theorem a_main_v16 (hag : Agree m m' c) : Kp[Cert.KernelIdeal.main_v16] = Rv[Cert.ReferenceIdeal.main_v17] := by
  refine (unary_at (ops := preOps) (x := Cert.KernelIdeal.main_c) (y := Cert.KernelIdeal.main_v16) (hx := ⟨by decide, by rfl⟩) (hy := ⟨by decide, by rfl⟩) 23 (by decide) rfl (not_written preW_are _ (by decide)) (not_written preW_are _ (by decide))).trans
    (Eq.trans ?_ (unary_at (ops := refOps) (x := Cert.ReferenceIdeal.main_c) (y := Cert.ReferenceIdeal.main_v17) (hx := ⟨by decide, by rfl⟩) (hy := ⟨by decide, by rfl⟩) 24 (by decide) rfl (not_written refW_are _ (by decide)) (not_written refW_are _ (by decide))).symm)
  rw [a_main_c m m' c hag] <;> rfl
theorem a_main_v17 (hag : Agree m m' c) : Kp[Cert.KernelIdeal.main_v17] = Rv[Cert.ReferenceIdeal.main_v18] := by
  refine (binary_at (ops := preOps) (a := Cert.KernelIdeal.main_v3) (b := Cert.KernelIdeal.main_v16) (y := Cert.KernelIdeal.main_v17) (ha := ⟨by decide, by rfl⟩) (hb := ⟨by decide, by rfl⟩) (hy := ⟨by decide, by rfl⟩) 24 (by decide) rfl (not_written preW_are _ (by decide)) (not_written preW_are _ (by decide)) (not_written preW_are _ (by decide))).trans
    (Eq.trans ?_ (binary_at (ops := refOps) (a := Cert.ReferenceIdeal.main_v3) (b := Cert.ReferenceIdeal.main_v17) (y := Cert.ReferenceIdeal.main_v18) (ha := ⟨by decide, by rfl⟩) (hb := ⟨by decide, by rfl⟩) (hy := ⟨by decide, by rfl⟩) 25 (by decide) rfl (not_written refW_are _ (by decide)) (not_written refW_are _ (by decide)) (not_written refW_are _ (by decide))).symm)
  rw [a_main_v3 m m' c hag, a_main_v16 m m' c hag] <;> rfl
theorem a_main_c_3 (hag : Agree m m' c) : Kp[Cert.KernelIdeal.main_c_3] = Rv[Cert.ReferenceIdeal.main_c_3] := by
  refine (nullary_at (ops := preOps) (y := Cert.KernelIdeal.main_c_3) (hy := ⟨by decide, by rfl⟩) 25 (by decide) rfl (not_written preW_are _ (by decide))).trans
    (Eq.trans ?_ (nullary_at (ops := refOps) (y := Cert.ReferenceIdeal.main_c_3) (hy := ⟨by decide, by rfl⟩) 26 (by decide) rfl (not_written refW_are _ (by decide))).symm)
  rfl
theorem a_main_v18 (hag : Agree m m' c) : Kp[Cert.KernelIdeal.main_v18] = Rv[Cert.ReferenceIdeal.main_v19] := by
  refine (unary_at (ops := preOps) (x := Cert.KernelIdeal.main_c_3) (y := Cert.KernelIdeal.main_v18) (hx := ⟨by decide, by rfl⟩) (hy := ⟨by decide, by rfl⟩) 26 (by decide) rfl (not_written preW_are _ (by decide)) (not_written preW_are _ (by decide))).trans
    (Eq.trans ?_ (unary_at (ops := refOps) (x := Cert.ReferenceIdeal.main_c_3) (y := Cert.ReferenceIdeal.main_v19) (hx := ⟨by decide, by rfl⟩) (hy := ⟨by decide, by rfl⟩) 27 (by decide) rfl (not_written refW_are _ (by decide)) (not_written refW_are _ (by decide))).symm)
  rw [a_main_c_3 m m' c hag] <;> rfl
theorem a_main_v19 (hag : Agree m m' c) : Kp[Cert.KernelIdeal.main_v19] = Rv[Cert.ReferenceIdeal.main_v20] := by
  refine (binary_at (ops := preOps) (a := Cert.KernelIdeal.main_v3) (b := Cert.KernelIdeal.main_v18) (y := Cert.KernelIdeal.main_v19) (ha := ⟨by decide, by rfl⟩) (hb := ⟨by decide, by rfl⟩) (hy := ⟨by decide, by rfl⟩) 27 (by decide) rfl (not_written preW_are _ (by decide)) (not_written preW_are _ (by decide)) (not_written preW_are _ (by decide))).trans
    (Eq.trans ?_ (binary_at (ops := refOps) (a := Cert.ReferenceIdeal.main_v3) (b := Cert.ReferenceIdeal.main_v19) (y := Cert.ReferenceIdeal.main_v20) (ha := ⟨by decide, by rfl⟩) (hb := ⟨by decide, by rfl⟩) (hy := ⟨by decide, by rfl⟩) 28 (by decide) rfl (not_written refW_are _ (by decide)) (not_written refW_are _ (by decide)) (not_written refW_are _ (by decide))).symm)
  rw [a_main_v3 m m' c hag, a_main_v18 m m' c hag] <;> rfl
theorem a_main_v20 (hag : Agree m m' c) : Kp[Cert.KernelIdeal.main_v20] = Rv[Cert.ReferenceIdeal.main_v21] := by
  refine (ternary_at (ops := preOps) (c := Cert.KernelIdeal.main_v17) (a := Cert.KernelIdeal.main_v19) (b := Cert.KernelIdeal.main_v3) (y := Cert.KernelIdeal.main_v20) (hc := ⟨by decide, by rfl⟩) (ha := ⟨by decide, by rfl⟩) (hb := ⟨by decide, by rfl⟩) (hy := ⟨by decide, by rfl⟩) 28 (by decide) rfl (not_written preW_are _ (by decide)) (not_written preW_are _ (by decide)) (not_written preW_are _ (by decide)) (not_written preW_are _ (by decide))).trans
    (Eq.trans ?_ (ternary_at (ops := refOps) (c := Cert.ReferenceIdeal.main_v18) (a := Cert.ReferenceIdeal.main_v20) (b := Cert.ReferenceIdeal.main_v3) (y := Cert.ReferenceIdeal.main_v21) (hc := ⟨by decide, by rfl⟩) (ha := ⟨by decide, by rfl⟩) (hb := ⟨by decide, by rfl⟩) (hy := ⟨by decide, by rfl⟩) 29 (by decide) rfl (not_written refW_are _ (by decide)) (not_written refW_are _ (by decide)) (not_written refW_are _ (by decide)) (not_written refW_are _ (by decide))).symm)
  rw [a_main_v17 m m' c hag, a_main_v19 m m' c hag, a_main_v3 m m' c hag] <;> rfl
theorem a_main_v21 (hag : Agree m m' c) : Kp[Cert.KernelIdeal.main_v21] = Rv[Cert.ReferenceIdeal.main_v22] := by
  refine (unary_at (ops := preOps) (x := Cert.KernelIdeal.main_v20) (y := Cert.KernelIdeal.main_v21) (hx := ⟨by decide, by rfl⟩) (hy := ⟨by decide, by rfl⟩) 29 (by decide) rfl (not_written preW_are _ (by decide)) (not_written preW_are _ (by decide))).trans
    (Eq.trans ?_ (unary_at (ops := refOps) (x := Cert.ReferenceIdeal.main_v21) (y := Cert.ReferenceIdeal.main_v22) (hx := ⟨by decide, by rfl⟩) (hy := ⟨by decide, by rfl⟩) 30 (by decide) rfl (not_written refW_are _ (by decide)) (not_written refW_are _ (by decide))).symm)
  rw [a_main_v20 m m' c hag] <;> rfl
theorem a_main_v22 (hag : Agree m m' c) : Kp[Cert.KernelIdeal.main_v22] = Rv[Cert.ReferenceIdeal.main_v23] := by
  refine (binary_at (ops := preOps) (a := Cert.KernelIdeal.main_v15) (b := Cert.KernelIdeal.main_v21) (y := Cert.KernelIdeal.main_v22) (ha := ⟨by decide, by rfl⟩) (hb := ⟨by decide, by rfl⟩) (hy := ⟨by decide, by rfl⟩) 30 (by decide) rfl (not_written preW_are _ (by decide)) (not_written preW_are _ (by decide)) (not_written preW_are _ (by decide))).trans
    (Eq.trans ?_ (binary_at (ops := refOps) (a := Cert.ReferenceIdeal.main_v16) (b := Cert.ReferenceIdeal.main_v22) (y := Cert.ReferenceIdeal.main_v23) (ha := ⟨by decide, by rfl⟩) (hb := ⟨by decide, by rfl⟩) (hy := ⟨by decide, by rfl⟩) 31 (by decide) rfl (not_written refW_are _ (by decide)) (not_written refW_are _ (by decide)) (not_written refW_are _ (by decide))).symm)
  rw [a_main_v15 m m' c hag, a_main_v21 m m' c hag] <;> rfl
theorem a_main_v23 (hag : Agree m m' c) : Kp[Cert.KernelIdeal.main_v23] = Rv[Cert.ReferenceIdeal.main_v24] := by
  refine (binary_at (ops := preOps) (a := Cert.KernelIdeal.main_v22) (b := Cert.KernelIdeal.main_v8) (y := Cert.KernelIdeal.main_v23) (ha := ⟨by decide, by rfl⟩) (hb := ⟨by decide, by rfl⟩) (hy := ⟨by decide, by rfl⟩) 31 (by decide) rfl (not_written preW_are _ (by decide)) (not_written preW_are _ (by decide)) (not_written preW_are _ (by decide))).trans
    (Eq.trans ?_ (binary_at (ops := refOps) (a := Cert.ReferenceIdeal.main_v23) (b := Cert.ReferenceIdeal.main_v8) (y := Cert.ReferenceIdeal.main_v24) (ha := ⟨by decide, by rfl⟩) (hb := ⟨by decide, by rfl⟩) (hy := ⟨by decide, by rfl⟩) 32 (by decide) rfl (not_written refW_are _ (by decide)) (not_written refW_are _ (by decide)) (not_written refW_are _ (by decide))).symm)
  rw [a_main_v22 m m' c hag, a_main_v8 m m' c hag] <;> rfl
theorem a_main_c_4 (hag : Agree m m' c) : Kp[Cert.KernelIdeal.main_c_4] = Rv[Cert.ReferenceIdeal.main_c_4] := by
  refine (nullary_at (ops := preOps) (y := Cert.KernelIdeal.main_c_4) (hy := ⟨by decide, by rfl⟩) 32 (by decide) rfl (not_written preW_are _ (by decide))).trans
    (Eq.trans ?_ (nullary_at (ops := refOps) (y := Cert.ReferenceIdeal.main_c_4) (hy := ⟨by decide, by rfl⟩) 33 (by decide) rfl (not_written refW_are _ (by decide))).symm)
  rfl
theorem a_main_v24 (hag : Agree m m' c) : Kp[Cert.KernelIdeal.main_v24] = Rv[Cert.ReferenceIdeal.main_v25] := by
  refine (unary_at (ops := preOps) (x := Cert.KernelIdeal.main_c_4) (y := Cert.KernelIdeal.main_v24) (hx := ⟨by decide, by rfl⟩) (hy := ⟨by decide, by rfl⟩) 33 (by decide) rfl (not_written preW_are _ (by decide)) (not_written preW_are _ (by decide))).trans
    (Eq.trans ?_ (unary_at (ops := refOps) (x := Cert.ReferenceIdeal.main_c_4) (y := Cert.ReferenceIdeal.main_v25) (hx := ⟨by decide, by rfl⟩) (hy := ⟨by decide, by rfl⟩) 34 (by decide) rfl (not_written refW_are _ (by decide)) (not_written refW_are _ (by decide))).symm)
  rw [a_main_c_4 m m' c hag] <;> rfl
theorem a_main_v25 (hag : Agree m m' c) : Kp[Cert.KernelIdeal.main_v25] = Rv[Cert.ReferenceIdeal.main_v26] := by
  refine (binary_at (ops := preOps) (a := Cert.KernelIdeal.main_v6) (b := Cert.KernelIdeal.main_v24) (y := Cert.KernelIdeal.main_v25) (ha := ⟨by decide, by rfl⟩) (hb := ⟨by decide, by rfl⟩) (hy := ⟨by decide, by rfl⟩) 34 (by decide) rfl (not_written preW_are _ (by decide)) (not_written preW_are _ (by decide)) (not_written preW_are _ (by decide))).trans
    (Eq.trans ?_ (binary_at (ops := refOps) (a := Cert.ReferenceIdeal.main_v6) (b := Cert.ReferenceIdeal.main_v25) (y := Cert.ReferenceIdeal.main_v26) (ha := ⟨by decide, by rfl⟩) (hb := ⟨by decide, by rfl⟩) (hy := ⟨by decide, by rfl⟩) 35 (by decide) rfl (not_written refW_are _ (by decide)) (not_written refW_are _ (by decide)) (not_written refW_are _ (by decide))).symm)
  rw [a_main_v6 m m' c hag, a_main_v24 m m' c hag] <;> rfl
theorem a_main_c_5 (hag : Agree m m' c) : Kp[Cert.KernelIdeal.main_c_5] = Rv[Cert.ReferenceIdeal.main_c_5] := by
  refine (nullary_at (ops := preOps) (y := Cert.KernelIdeal.main_c_5) (hy := ⟨by decide, by rfl⟩) 35 (by decide) rfl (not_written preW_are _ (by decide))).trans
    (Eq.trans ?_ (nullary_at (ops := refOps) (y := Cert.ReferenceIdeal.main_c_5) (hy := ⟨by decide, by rfl⟩) 36 (by decide) rfl (not_written refW_are _ (by decide))).symm)
  rfl
theorem a_main_v26 (hag : Agree m m' c) : Kp[Cert.KernelIdeal.main_v26] = Rv[Cert.ReferenceIdeal.main_v27] := by
  refine (unary_at (ops := preOps) (x := Cert.KernelIdeal.main_c_5) (y := Cert.KernelIdeal.main_v26) (hx := ⟨by decide, by rfl⟩) (hy := ⟨by decide, by rfl⟩) 36 (by decide) rfl (not_written preW_are _ (by decide)) (not_written preW_are _ (by decide))).trans
    (Eq.trans ?_ (unary_at (ops := refOps) (x := Cert.ReferenceIdeal.main_c_5) (y := Cert.ReferenceIdeal.main_v27) (hx := ⟨by decide, by rfl⟩) (hy := ⟨by decide, by rfl⟩) 37 (by decide) rfl (not_written refW_are _ (by decide)) (not_written refW_are _ (by decide))).symm)
  rw [a_main_c_5 m m' c hag] <;> rfl
theorem a_main_v27 (hag : Agree m m' c) : Kp[Cert.KernelIdeal.main_v27] = Rv[Cert.ReferenceIdeal.main_v28] := by
  refine (binary_at (ops := preOps) (a := Cert.KernelIdeal.main_v6) (b := Cert.KernelIdeal.main_v26) (y := Cert.KernelIdeal.main_v27) (ha := ⟨by decide, by rfl⟩) (hb := ⟨by decide, by rfl⟩) (hy := ⟨by decide, by rfl⟩) 37 (by decide) rfl (not_written preW_are _ (by decide)) (not_written preW_are _ (by decide)) (not_written preW_are _ (by decide))).trans
    (Eq.trans ?_ (binary_at (ops := refOps) (a := Cert.ReferenceIdeal.main_v6) (b := Cert.ReferenceIdeal.main_v27) (y := Cert.ReferenceIdeal.main_v28) (ha := ⟨by decide, by rfl⟩) (hb := ⟨by decide, by rfl⟩) (hy := ⟨by decide, by rfl⟩) 38 (by decide) rfl (not_written refW_are _ (by decide)) (not_written refW_are _ (by decide)) (not_written refW_are _ (by decide))).symm)
  rw [a_main_v6 m m' c hag, a_main_v26 m m' c hag] <;> rfl
theorem a_main_v28 (hag : Agree m m' c) : Kp[Cert.KernelIdeal.main_v28] = Rv[Cert.ReferenceIdeal.main_v29] := by
  refine (ternary_at (ops := preOps) (c := Cert.KernelIdeal.main_v25) (a := Cert.KernelIdeal.main_v27) (b := Cert.KernelIdeal.main_v6) (y := Cert.KernelIdeal.main_v28) (hc := ⟨by decide, by rfl⟩) (ha := ⟨by decide, by rfl⟩) (hb := ⟨by decide, by rfl⟩) (hy := ⟨by decide, by rfl⟩) 38 (by decide) rfl (not_written preW_are _ (by decide)) (not_written preW_are _ (by decide)) (not_written preW_are _ (by decide)) (not_written preW_are _ (by decide))).trans
    (Eq.trans ?_ (ternary_at (ops := refOps) (c := Cert.ReferenceIdeal.main_v26) (a := Cert.ReferenceIdeal.main_v28) (b := Cert.ReferenceIdeal.main_v6) (y := Cert.ReferenceIdeal.main_v29) (hc := ⟨by decide, by rfl⟩) (ha := ⟨by decide, by rfl⟩) (hb := ⟨by decide, by rfl⟩) (hy := ⟨by decide, by rfl⟩) 39 (by decide) rfl (not_written refW_are _ (by decide)) (not_written refW_are _ (by decide)) (not_written refW_are _ (by decide)) (not_written refW_are _ (by decide))).symm)
  rw [a_main_v25 m m' c hag, a_main_v27 m m' c hag, a_main_v6 m m' c hag] <;> rfl
theorem a_main_v29 (hag : Agree m m' c) : Kp[Cert.KernelIdeal.main_v29] = Rv[Cert.ReferenceIdeal.main_v30] := by
  refine (unary_at (ops := preOps) (x := Cert.KernelIdeal.main_v28) (y := Cert.KernelIdeal.main_v29) (hx := ⟨by decide, by rfl⟩) (hy := ⟨by decide, by rfl⟩) 39 (by decide) rfl (not_written preW_are _ (by decide)) (not_written preW_are _ (by decide))).trans
    (Eq.trans ?_ (unary_at (ops := refOps) (x := Cert.ReferenceIdeal.main_v29) (y := Cert.ReferenceIdeal.main_v30) (hx := ⟨by decide, by rfl⟩) (hy := ⟨by decide, by rfl⟩) 40 (by decide) rfl (not_written refW_are _ (by decide)) (not_written refW_are _ (by decide))).symm)
  rw [a_main_v28 m m' c hag] <;> rfl
theorem a_main_v30 (hag : Agree m m' c) : Kp[Cert.KernelIdeal.main_v30] = Rv[Cert.ReferenceIdeal.main_v31] := by
  refine (binary_at (ops := preOps) (a := Cert.KernelIdeal.main_v15) (b := Cert.KernelIdeal.main_v29) (y := Cert.KernelIdeal.main_v30) (ha := ⟨by decide, by rfl⟩) (hb := ⟨by decide, by rfl⟩) (hy := ⟨by decide, by rfl⟩) 40 (by decide) rfl (not_written preW_are _ (by decide)) (not_written preW_are _ (by decide)) (not_written preW_are _ (by decide))).trans
    (Eq.trans ?_ (binary_at (ops := refOps) (a := Cert.ReferenceIdeal.main_v16) (b := Cert.ReferenceIdeal.main_v30) (y := Cert.ReferenceIdeal.main_v31) (ha := ⟨by decide, by rfl⟩) (hb := ⟨by decide, by rfl⟩) (hy := ⟨by decide, by rfl⟩) 41 (by decide) rfl (not_written refW_are _ (by decide)) (not_written refW_are _ (by decide)) (not_written refW_are _ (by decide))).symm)
  rw [a_main_v15 m m' c hag, a_main_v29 m m' c hag] <;> rfl
theorem a_main_v31 (hag : Agree m m' c) : Kp[Cert.KernelIdeal.main_v31] = Rv[Cert.ReferenceIdeal.main_v32] := by
  refine (binary_at (ops := preOps) (a := Cert.KernelIdeal.main_v23) (b := Cert.KernelIdeal.main_v30) (y := Cert.KernelIdeal.main_v31) (ha := ⟨by decide, by rfl⟩) (hb := ⟨by decide, by rfl⟩) (hy := ⟨by decide, by rfl⟩) 41 (by decide) rfl (not_written preW_are _ (by decide)) (not_written preW_are _ (by decide)) (not_written preW_are _ (by decide))).trans
    (Eq.trans ?_ (binary_at (ops := refOps) (a := Cert.ReferenceIdeal.main_v24) (b := Cert.ReferenceIdeal.main_v31) (y := Cert.ReferenceIdeal.main_v32) (ha := ⟨by decide, by rfl⟩) (hb := ⟨by decide, by rfl⟩) (hy := ⟨by decide, by rfl⟩) 42 (by decide) rfl (not_written refW_are _ (by decide)) (not_written refW_are _ (by decide)) (not_written refW_are _ (by decide))).symm)
  rw [a_main_v23 m m' c hag, a_main_v30 m m' c hag] <;> rfl

end Cert.Proof.Lines

end
-- ==== Proof.StepsB.lean ====
/-
  The reference computes the edge normalisation twice, once per layer, from the same edge lists and weights: its operations
  66 to 97 repeat its operations 11 to 42. The kernel computes it once. So the kernel's operations 10 to 41 of the first line
  are matched a second time, against the reference's operations 66 to 97: same functions, operands already known equal.
-/
import proofs.«164817_j62955630625290_2_alg».proof.Proof.Lines
import proofs.«164817_j62955630625290_2_alg».proof.Proof.StepsA

noncomputable section

open Idealize.ShloMosaic Idealize.ShloMosaic.TcCoe Idealize.SL.Sem Idealize.ShloMosaic.StableHlo
open Cert.LibStraightLine

namespace Cert.Proof.Lines

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

-- an operation of a line is recognised as the builder's application it is written as, its function read off as it stands
attribute [local irreducible] StableHlo.nullary StableHlo.unary StableHlo.binary StableHlo.ternary StableHlo.reshape

local notation:max "Kp[" r "]" => after preOps (launchContents m c) (Proc.devRef Proc.tc r)
local notation:max "Kt[" r "]" => after tailOps (exitV m c) (Proc.devRef Proc.tc r)
local notation:max "Rv[" r "]" => after refOps (launchContents m' c) (Proc.devRef Proc.tc r)

theorem b_main_cst_0 (hag : Agree m m' c) : Kp[Cert.KernelIdeal.main_cst_0] = Rv[Cert.ReferenceIdeal.main_cst_9] := by
  refine (nullary_at (ops := preOps) (y := Cert.KernelIdeal.main_cst_0) (hy := ⟨by decide, by rfl⟩) 10 (by decide) rfl (not_written preW_are _ (by decide))).trans
    (Eq.trans ?_ (nullary_at (ops := refOps) (y := Cert.ReferenceIdeal.main_cst_9) (hy := ⟨by decide, by rfl⟩) 66 (by decide) rfl (not_written refW_are _ (by decide))).symm)
  rfl
theorem b_main_v9 (hag : Agree m m' c) : Kp[Cert.KernelIdeal.main_v9] = Rv[Cert.ReferenceIdeal.main_v51] := by
  refine (unary_at (ops := preOps) (x := Cert.KernelIdeal.main_cst_0) (y := Cert.KernelIdeal.main_v9) (hx := ⟨by decide, by rfl⟩) (hy := ⟨by decide, by rfl⟩) 11 (by decide) rfl (not_written preW_are _ (by decide)) (not_written preW_are _ (by decide))).trans
    (Eq.trans ?_ (unary_at (ops := refOps) (x := Cert.ReferenceIdeal.main_cst_9) (y := Cert.ReferenceIdeal.main_v51) (hx := ⟨by decide, by rfl⟩) (hy := ⟨by decide, by rfl⟩) 67 (by decide) rfl (not_written refW_are _ (by decide)) (not_written refW_are _ (by decide))).symm)
  rw [b_main_cst_0 m m' c hag] <;> rfl
theorem b_main_v10 (hag : Agree m m' c) : Kp[Cert.KernelIdeal.main_v10] = Rv[Cert.ReferenceIdeal.main_v52] := by
  refine (unary_at (ops := preOps) (x := Cert.KernelIdeal.main_v6) (y := Cert.KernelIdeal.main_v10) (hx := ⟨by decide, by rfl⟩) (hy := ⟨by decide, by rfl⟩) 12 (by decide) rfl (not_written preW_are _ (by decide)) (not_written preW_are _ (by decide))).trans
    (Eq.trans ?_ (unary_at (ops := refOps) (x := Cert.ReferenceIdeal.main_v6) (y := Cert.ReferenceIdeal.main_v52) (hx := ⟨by decide, by rfl⟩) (hy := ⟨by decide, by rfl⟩) 68 (by decide) rfl (not_written refW_are _ (by decide)) (not_written refW_are _ (by decide))).symm)
  rw [a_main_v6 m m' c hag] <;> rfl
theorem b_main_v11 (hag : Agree m m' c) : Kp[Cert.KernelIdeal.main_v11] = Rv[Cert.ReferenceIdeal.main_v53] := by
  refine (ternary_at (ops := preOps) (c := Cert.KernelIdeal.main_v9) (a := Cert.KernelIdeal.main_v10) (b := Cert.KernelIdeal.main_v8) (y := Cert.KernelIdeal.main_v11) (hc := ⟨by decide, by rfl⟩) (ha := ⟨by decide, by rfl⟩) (hb := ⟨by decide, by rfl⟩) (hy := ⟨by decide, by rfl⟩) 13 (by decide) rfl (not_written preW_are _ (by decide)) (not_written preW_are _ (by decide)) (not_written preW_are _ (by decide)) (not_written preW_are _ (by decide))).trans
    (Eq.trans ?_ (ternary_at (ops := refOps) (c := Cert.ReferenceIdeal.main_v51) (a := Cert.ReferenceIdeal.main_v52) (b := Cert.ReferenceIdeal.main_v8) (y := Cert.ReferenceIdeal.main_v53) (hc := ⟨by decide, by rfl⟩) (ha := ⟨by decide, by rfl⟩) (hb := ⟨by decide, by rfl⟩) (hy := ⟨by decide, by rfl⟩) 69 (by decide) rfl (not_written refW_are _ (by decide)) (not_written refW_are _ (by decide)) (not_written refW_are _ (by decide)) (not_written refW_are _ (by decide))).symm)
  rw [b_main_v9 m m' c hag, b_main_v10 m m' c hag, a_main_v8 m m' c hag] <;> rfl
theorem b_main_cst_1 (hag : Agree m m' c) : Kp[Cert.KernelIdeal.main_cst_1] = Rv[Cert.ReferenceIdeal.main_cst_10] := by
  refine (nullary_at (ops := preOps) (y := Cert.KernelIdeal.main_cst_1) (hy := ⟨by decide, by rfl⟩) 14 (by decide) rfl (not_written preW_are _ (by decide))).trans
    (Eq.trans ?_ (nullary_at (ops := refOps) (y := Cert.ReferenceIdeal.main_cst_10) (hy := ⟨by decide, by rfl⟩) 70 (by decide) rfl (not_written refW_are _ (by decide))).symm)
  rfl
theorem b_main_v12 (hag : Agree m m' c) : Kp[Cert.KernelIdeal.main_v12] = Rv[Cert.ReferenceIdeal.main_v54] := by
  refine (unary_at (ops := preOps) (x := Cert.KernelIdeal.main_cst_1) (y := Cert.KernelIdeal.main_v12) (hx := ⟨by decide, by rfl⟩) (hy := ⟨by decide, by rfl⟩) 15 (by decide) rfl (not_written preW_are _ (by decide)) (not_written preW_are _ (by decide))).trans
    (Eq.trans ?_ (unary_at (ops := refOps) (x := Cert.ReferenceIdeal.main_cst_10) (y := Cert.ReferenceIdeal.main_v54) (hx := ⟨by decide, by rfl⟩) (hy := ⟨by decide, by rfl⟩) 71 (by decide) rfl (not_written refW_are _ (by decide)) (not_written refW_are _ (by decide))).symm)
  rw [b_main_cst_1 m m' c hag] <;> rfl
theorem b_main_v13 (hag : Agree m m' c) : Kp[Cert.KernelIdeal.main_v13] = Rv[Cert.ReferenceIdeal.main_v55] := by
  refine (binary_at (ops := preOps) (a := Cert.KernelIdeal.main_v11) (b := Cert.KernelIdeal.main_v12) (y := Cert.KernelIdeal.main_v13) (ha := ⟨by decide, by rfl⟩) (hb := ⟨by decide, by rfl⟩) (hy := ⟨by decide, by rfl⟩) 16 (by decide) rfl (not_written preW_are _ (by decide)) (not_written preW_are _ (by decide)) (not_written preW_are _ (by decide))).trans
    (Eq.trans ?_ (binary_at (ops := refOps) (a := Cert.ReferenceIdeal.main_v53) (b := Cert.ReferenceIdeal.main_v54) (y := Cert.ReferenceIdeal.main_v55) (ha := ⟨by decide, by rfl⟩) (hb := ⟨by decide, by rfl⟩) (hy := ⟨by decide, by rfl⟩) 72 (by decide) rfl (not_written refW_are _ (by decide)) (not_written refW_are _ (by decide)) (not_written refW_are _ (by decide))).symm)
  rw [b_main_v11 m m' c hag, b_main_v12 m m' c hag] <;> rfl
theorem b_main_v14 (hag : Agree m m' c) : Kp[Cert.KernelIdeal.main_v14] = Rv[Cert.ReferenceIdeal.main_v56] := by
  refine (unary_at (ops := preOps) (x := Cert.KernelIdeal.main_v11) (y := Cert.KernelIdeal.main_v14) (hx := ⟨by decide, by rfl⟩) (hy := ⟨by decide, by rfl⟩) 17 (by decide) rfl (not_written preW_are _ (by decide)) (not_written preW_are _ (by decide))).trans
    (Eq.trans ?_ (unary_at (ops := refOps) (x := Cert.ReferenceIdeal.main_v53) (y := Cert.ReferenceIdeal.main_v56) (hx := ⟨by decide, by rfl⟩) (hy := ⟨by decide, by rfl⟩) 73 (by decide) rfl (not_written refW_are _ (by decide)) (not_written refW_are _ (by decide))).symm)
  rw [b_main_v11 m m' c hag] <;> rfl
theorem b_main_cst_2 (hag : Agree m m' c) : Kp[Cert.KernelIdeal.main_cst_2] = Rv[Cert.ReferenceIdeal.main_cst_11] := by
  refine (nullary_at (ops := preOps) (y := Cert.KernelIdeal.main_cst_2) (hy := ⟨by decide, by rfl⟩) 18 (by decide) rfl (not_written preW_are _ (by decide))).trans
    (Eq.trans ?_ (nullary_at (ops := refOps) (y := Cert.ReferenceIdeal.main_cst_11) (hy := ⟨by decide, by rfl⟩) 74 (by decide) rfl (not_written refW_are _ (by decide))).symm)
  rfl
theorem b_main_call0_v0 (hag : Agree m m' c) : Kp[Cert.KernelIdeal.main_call0_v0] = Rv[Cert.ReferenceIdeal.main_call2_v0] := by
  refine (unary_at (ops := preOps) (x := Cert.KernelIdeal.main_cst_2) (y := Cert.KernelIdeal.main_call0_v0) (hx := ⟨by decide, by rfl⟩) (hy := ⟨by decide, by rfl⟩) 19 (by decide) rfl (not_written preW_are _ (by decide)) (not_written preW_are _ (by decide))).trans
    (Eq.trans ?_ (unary_at (ops := refOps) (x := Cert.ReferenceIdeal.main_cst_11) (y := Cert.ReferenceIdeal.main_call2_v0) (hx := ⟨by decide, by rfl⟩) (hy := ⟨by decide, by rfl⟩) 75 (by decide) rfl (not_written refW_are _ (by decide)) (not_written refW_are _ (by decide))).symm)
  rw [b_main_cst_2 m m' c hag] <;> rfl
theorem b_main_call0_v1 (hag : Agree m m' c) : Kp[Cert.KernelIdeal.main_call0_v1] = Rv[Cert.ReferenceIdeal.main_call2_v1] := by
  refine (unary_at (ops := preOps) (x := Cert.KernelIdeal.main_call0_v0) (y := Cert.KernelIdeal.main_call0_v1) (hx := ⟨by decide, by rfl⟩) (hy := ⟨by decide, by rfl⟩) 20 (by decide) rfl (not_written preW_are _ (by decide)) (not_written preW_are _ (by decide))).trans
    (Eq.trans ?_ (unary_at (ops := refOps) (x := Cert.ReferenceIdeal.main_call2_v0) (y := Cert.ReferenceIdeal.main_call2_v1) (hx := ⟨by decide, by rfl⟩) (hy := ⟨by decide, by rfl⟩) 76 (by decide) rfl (not_written refW_are _ (by decide)) (not_written refW_are _ (by decide))).symm)
  rw [b_main_call0_v0 m m' c hag] <;> rfl
theorem b_main_v15 (hag : Agree m m' c) : Kp[Cert.KernelIdeal.main_v15] = Rv[Cert.ReferenceIdeal.main_v57] := by
  refine (ternary_at (ops := preOps) (c := Cert.KernelIdeal.main_v13) (a := Cert.KernelIdeal.main_v14) (b := Cert.KernelIdeal.main_call0_v1) (y := Cert.KernelIdeal.main_v15) (hc := ⟨by decide, by rfl⟩) (ha := ⟨by decide, by rfl⟩) (hb := ⟨by decide, by rfl⟩) (hy := ⟨by decide, by rfl⟩) 21 (by decide) rfl (not_written preW_are _ (by decide)) (not_written preW_are _ (by decide)) (not_written preW_are _ (by decide)) (not_written preW_are _ (by decide))).trans
    (Eq.trans ?_ (ternary_at (ops := refOps) (c := Cert.ReferenceIdeal.main_v55) (a := Cert.ReferenceIdeal.main_v56) (b := Cert.ReferenceIdeal.main_call2_v1) (y := Cert.ReferenceIdeal.main_v57) (hc := ⟨by decide, by rfl⟩) (ha := ⟨by decide, by rfl⟩) (hb := ⟨by decide, by rfl⟩) (hy := ⟨by decide, by rfl⟩) 77 (by decide) rfl (not_written refW_are _ (by decide)) (not_written refW_are _ (by decide)) (not_written refW_are _ (by decide)) (not_written refW_are _ (by decide))).symm)
  rw [b_main_v13 m m' c hag, b_main_v14 m m' c hag, b_main_call0_v1 m m' c hag] <;> rfl
theorem b_main_c (hag : Agree m m' c) : Kp[Cert.KernelIdeal.main_c] = Rv[Cert.ReferenceIdeal.main_c_12] := by
  refine (nullary_at (ops := preOps) (y := Cert.KernelIdeal.main_c) (hy := ⟨by decide, by rfl⟩) 22 (by decide) rfl (not_written preW_are _ (by decide))).trans
    (Eq.trans ?_ (nullary_at (ops := refOps) (y := Cert.ReferenceIdeal.main_c_12) (hy := ⟨by decide, by rfl⟩) 78 (by decide) rfl (not_written refW_are _ (by decide))).symm)
  rfl
theorem b_main_v16 (hag : Agree m m' c) : Kp[Cert.KernelIdeal.main_v16] = Rv[Cert.ReferenceIdeal.main_v58] := by
  refine (unary_at (ops := preOps) (x := Cert.KernelIdeal.main_c) (y := Cert.KernelIdeal.main_v16) (hx := ⟨by decide, by rfl⟩) (hy := ⟨by decide, by rfl⟩) 23 (by decide) rfl (not_written preW_are _ (by decide)) (not_written preW_are _ (by decide))).trans
    (Eq.trans ?_ (unary_at (ops := refOps) (x := Cert.ReferenceIdeal.main_c_12) (y := Cert.ReferenceIdeal.main_v58) (hx := ⟨by decide, by rfl⟩) (hy := ⟨by decide, by rfl⟩) 79 (by decide) rfl (not_written refW_are _ (by decide)) (not_written refW_are _ (by decide))).symm)
  rw [b_main_c m m' c hag] <;> rfl
theorem b_main_v17 (hag : Agree m m' c) : Kp[Cert.KernelIdeal.main_v17] = Rv[Cert.ReferenceIdeal.main_v59] := by
  refine (binary_at (ops := preOps) (a := Cert.KernelIdeal.main_v3) (b := Cert.KernelIdeal.main_v16) (y := Cert.KernelIdeal.main_v17) (ha := ⟨by decide, by rfl⟩) (hb := ⟨by decide, by rfl⟩) (hy := ⟨by decide, by rfl⟩) 24 (by decide) rfl (not_written preW_are _ (by decide)) (not_written preW_are _ (by decide)) (not_written preW_are _ (by decide))).trans
    (Eq.trans ?_ (binary_at (ops := refOps) (a := Cert.ReferenceIdeal.main_v3) (b := Cert.ReferenceIdeal.main_v58) (y := Cert.ReferenceIdeal.main_v59) (ha := ⟨by decide, by rfl⟩) (hb := ⟨by decide, by rfl⟩) (hy := ⟨by decide, by rfl⟩) 80 (by decide) rfl (not_written refW_are _ (by decide)) (not_written refW_are _ (by decide)) (not_written refW_are _ (by decide))).symm)
  rw [a_main_v3 m m' c hag, b_main_v16 m m' c hag] <;> rfl
theorem b_main_c_3 (hag : Agree m m' c) : Kp[Cert.KernelIdeal.main_c_3] = Rv[Cert.ReferenceIdeal.main_c_13] := by
  refine (nullary_at (ops := preOps) (y := Cert.KernelIdeal.main_c_3) (hy := ⟨by decide, by rfl⟩) 25 (by decide) rfl (not_written preW_are _ (by decide))).trans
    (Eq.trans ?_ (nullary_at (ops := refOps) (y := Cert.ReferenceIdeal.main_c_13) (hy := ⟨by decide, by rfl⟩) 81 (by decide) rfl (not_written refW_are _ (by decide))).symm)
  rfl
theorem b_main_v18 (hag : Agree m m' c) : Kp[Cert.KernelIdeal.main_v18] = Rv[Cert.ReferenceIdeal.main_v60] := by
  refine (unary_at (ops := preOps) (x := Cert.KernelIdeal.main_c_3) (y := Cert.KernelIdeal.main_v18) (hx := ⟨by decide, by rfl⟩) (hy := ⟨by decide, by rfl⟩) 26 (by decide) rfl (not_written preW_are _ (by decide)) (not_written preW_are _ (by decide))).trans
    (Eq.trans ?_ (unary_at (ops := refOps) (x := Cert.ReferenceIdeal.main_c_13) (y := Cert.ReferenceIdeal.main_v60) (hx := ⟨by decide, by rfl⟩) (hy := ⟨by decide, by rfl⟩) 82 (by decide) rfl (not_written refW_are _ (by decide)) (not_written refW_are _ (by decide))).symm)
  rw [b_main_c_3 m m' c hag] <;> rfl
theorem b_main_v19 (hag : Agree m m' c) : Kp[Cert.KernelIdeal.main_v19] = Rv[Cert.ReferenceIdeal.main_v61] := by
  refine (binary_at (ops := preOps) (a := Cert.KernelIdeal.main_v3) (b := Cert.KernelIdeal.main_v18) (y := Cert.KernelIdeal.main_v19) (ha := ⟨by decide, by rfl⟩) (hb := ⟨by decide, by rfl⟩) (hy := ⟨by decide, by rfl⟩) 27 (by decide) rfl (not_written preW_are _ (by decide)) (not_written preW_are _ (by decide)) (not_written preW_are _ (by decide))).trans
    (Eq.trans ?_ (binary_at (ops := refOps) (a := Cert.ReferenceIdeal.main_v3) (b := Cert.ReferenceIdeal.main_v60) (y := Cert.ReferenceIdeal.main_v61) (ha := ⟨by decide, by rfl⟩) (hb := ⟨by decide, by rfl⟩) (hy := ⟨by decide, by rfl⟩) 83 (by decide) rfl (not_written refW_are _ (by decide)) (not_written refW_are _ (by decide)) (not_written refW_are _ (by decide))).symm)
  rw [a_main_v3 m m' c hag, b_main_v18 m m' c hag] <;> rfl
theorem b_main_v20 (hag : Agree m m' c) : Kp[Cert.KernelIdeal.main_v20] = Rv[Cert.ReferenceIdeal.main_v62] := by
  refine (ternary_at (ops := preOps) (c := Cert.KernelIdeal.main_v17) (a := Cert.KernelIdeal.main_v19) (b := Cert.KernelIdeal.main_v3) (y := Cert.KernelIdeal.main_v20) (hc := ⟨by decide, by rfl⟩) (ha := ⟨by decide, by rfl⟩) (hb := ⟨by decide, by rfl⟩) (hy := ⟨by decide, by rfl⟩) 28 (by decide) rfl (not_written preW_are _ (by decide)) (not_written preW_are _ (by decide)) (not_written preW_are _ (by decide)) (not_written preW_are _ (by decide))).trans
    (Eq.trans ?_ (ternary_at (ops := refOps) (c := Cert.ReferenceIdeal.main_v59) (a := Cert.ReferenceIdeal.main_v61) (b := Cert.ReferenceIdeal.main_v3) (y := Cert.ReferenceIdeal.main_v62) (hc := ⟨by decide, by rfl⟩) (ha := ⟨by decide, by rfl⟩) (hb := ⟨by decide, by rfl⟩) (hy := ⟨by decide, by rfl⟩) 84 (by decide) rfl (not_written refW_are _ (by decide)) (not_written refW_are _ (by decide)) (not_written refW_are _ (by decide)) (not_written refW_are _ (by decide))).symm)
  rw [b_main_v17 m m' c hag, b_main_v19 m m' c hag, a_main_v3 m m' c hag] <;> rfl
theorem b_main_v21 (hag : Agree m m' c) : Kp[Cert.KernelIdeal.main_v21] = Rv[Cert.ReferenceIdeal.main_v63] := by
  refine (unary_at (ops := preOps) (x := Cert.KernelIdeal.main_v20) (y := Cert.KernelIdeal.main_v21) (hx := ⟨by decide, by rfl⟩) (hy := ⟨by decide, by rfl⟩) 29 (by decide) rfl (not_written preW_are _ (by decide)) (not_written preW_are _ (by decide))).trans
    (Eq.trans ?_ (unary_at (ops := refOps) (x := Cert.ReferenceIdeal.main_v62) (y := Cert.ReferenceIdeal.main_v63) (hx := ⟨by decide, by rfl⟩) (hy := ⟨by decide, by rfl⟩) 85 (by decide) rfl (not_written refW_are _ (by decide)) (not_written refW_are _ (by decide))).symm)
  rw [b_main_v20 m m' c hag] <;> rfl
theorem b_main_v22 (hag : Agree m m' c) : Kp[Cert.KernelIdeal.main_v22] = Rv[Cert.ReferenceIdeal.main_v64] := by
  refine (binary_at (ops := preOps) (a := Cert.KernelIdeal.main_v15) (b := Cert.KernelIdeal.main_v21) (y := Cert.KernelIdeal.main_v22) (ha := ⟨by decide, by rfl⟩) (hb := ⟨by decide, by rfl⟩) (hy := ⟨by decide, by rfl⟩) 30 (by decide) rfl (not_written preW_are _ (by decide)) (not_written preW_are _ (by decide)) (not_written preW_are _ (by decide))).trans
    (Eq.trans ?_ (binary_at (ops := refOps) (a := Cert.ReferenceIdeal.main_v57) (b := Cert.ReferenceIdeal.main_v63) (y := Cert.ReferenceIdeal.main_v64) (ha := ⟨by decide, by rfl⟩) (hb := ⟨by decide, by rfl⟩) (hy := ⟨by decide, by rfl⟩) 86 (by decide) rfl (not_written refW_are _ (by decide)) (not_written refW_are _ (by decide)) (not_written refW_are _ (by decide))).symm)
  rw [b_main_v15 m m' c hag, b_main_v21 m m' c hag] <;> rfl
theorem b_main_v23 (hag : Agree m m' c) : Kp[Cert.KernelIdeal.main_v23] = Rv[Cert.ReferenceIdeal.main_v65] := by
  refine (binary_at (ops := preOps) (a := Cert.KernelIdeal.main_v22) (b := Cert.KernelIdeal.main_v8) (y := Cert.KernelIdeal.main_v23) (ha := ⟨by decide, by rfl⟩) (hb := ⟨by decide, by rfl⟩) (hy := ⟨by decide, by rfl⟩) 31 (by decide) rfl (not_written preW_are _ (by decide)) (not_written preW_are _ (by decide)) (not_written preW_are _ (by decide))).trans
    (Eq.trans ?_ (binary_at (ops := refOps) (a := Cert.ReferenceIdeal.main_v64) (b := Cert.ReferenceIdeal.main_v8) (y := Cert.ReferenceIdeal.main_v65) (ha := ⟨by decide, by rfl⟩) (hb := ⟨by decide, by rfl⟩) (hy := ⟨by decide, by rfl⟩) 87 (by decide) rfl (not_written refW_are _ (by decide)) (not_written refW_are _ (by decide)) (not_written refW_are _ (by decide))).symm)
  rw [b_main_v22 m m' c hag, a_main_v8 m m' c hag] <;> rfl
theorem b_main_c_4 (hag : Agree m m' c) : Kp[Cert.KernelIdeal.main_c_4] = Rv[Cert.ReferenceIdeal.main_c_14] := by
  refine (nullary_at (ops := preOps) (y := Cert.KernelIdeal.main_c_4) (hy := ⟨by decide, by rfl⟩) 32 (by decide) rfl (not_written preW_are _ (by decide))).trans
    (Eq.trans ?_ (nullary_at (ops := refOps) (y := Cert.ReferenceIdeal.main_c_14) (hy := ⟨by decide, by rfl⟩) 88 (by decide) rfl (not_written refW_are _ (by decide))).symm)
  rfl
theorem b_main_v24 (hag : Agree m m' c) : Kp[Cert.KernelIdeal.main_v24] = Rv[Cert.ReferenceIdeal.main_v66] := by
  refine (unary_at (ops := preOps) (x := Cert.KernelIdeal.main_c_4) (y := Cert.KernelIdeal.main_v24) (hx := ⟨by decide, by rfl⟩) (hy := ⟨by decide, by rfl⟩) 33 (by decide) rfl (not_written preW_are _ (by decide)) (not_written preW_are _ (by decide))).trans
    (Eq.trans ?_ (unary_at (ops := refOps) (x := Cert.ReferenceIdeal.main_c_14) (y := Cert.ReferenceIdeal.main_v66) (hx := ⟨by decide, by rfl⟩) (hy := ⟨by decide, by rfl⟩) 89 (by decide) rfl (not_written refW_are _ (by decide)) (not_written refW_are _ (by decide))).symm)
  rw [b_main_c_4 m m' c hag] <;> rfl
theorem b_main_v25 (hag : Agree m m' c) : Kp[Cert.KernelIdeal.main_v25] = Rv[Cert.ReferenceIdeal.main_v67] := by
  refine (binary_at (ops := preOps) (a := Cert.KernelIdeal.main_v6) (b := Cert.KernelIdeal.main_v24) (y := Cert.KernelIdeal.main_v25) (ha := ⟨by decide, by rfl⟩) (hb := ⟨by decide, by rfl⟩) (hy := ⟨by decide, by rfl⟩) 34 (by decide) rfl (not_written preW_are _ (by decide)) (not_written preW_are _ (by decide)) (not_written preW_are _ (by decide))).trans
    (Eq.trans ?_ (binary_at (ops := refOps) (a := Cert.ReferenceIdeal.main_v6) (b := Cert.ReferenceIdeal.main_v66) (y := Cert.ReferenceIdeal.main_v67) (ha := ⟨by decide, by rfl⟩) (hb := ⟨by decide, by rfl⟩) (hy := ⟨by decide, by rfl⟩) 90 (by decide) rfl (not_written refW_are _ (by decide)) (not_written refW_are _ (by decide)) (not_written refW_are _ (by decide))).symm)
  rw [a_main_v6 m m' c hag, b_main_v24 m m' c hag] <;> rfl
theorem b_main_c_5 (hag : Agree m m' c) : Kp[Cert.KernelIdeal.main_c_5] = Rv[Cert.ReferenceIdeal.main_c_15] := by
  refine (nullary_at (ops := preOps) (y := Cert.KernelIdeal.main_c_5) (hy := ⟨by decide, by rfl⟩) 35 (by decide) rfl (not_written preW_are _ (by decide))).trans
    (Eq.trans ?_ (nullary_at (ops := refOps) (y := Cert.ReferenceIdeal.main_c_15) (hy := ⟨by decide, by rfl⟩) 91 (by decide) rfl (not_written refW_are _ (by decide))).symm)
  rfl
theorem b_main_v26 (hag : Agree m m' c) : Kp[Cert.KernelIdeal.main_v26] = Rv[Cert.ReferenceIdeal.main_v68] := by
  refine (unary_at (ops := preOps) (x := Cert.KernelIdeal.main_c_5) (y := Cert.KernelIdeal.main_v26) (hx := ⟨by decide, by rfl⟩) (hy := ⟨by decide, by rfl⟩) 36 (by decide) rfl (not_written preW_are _ (by decide)) (not_written preW_are _ (by decide))).trans
    (Eq.trans ?_ (unary_at (ops := refOps) (x := Cert.ReferenceIdeal.main_c_15) (y := Cert.ReferenceIdeal.main_v68) (hx := ⟨by decide, by rfl⟩) (hy := ⟨by decide, by rfl⟩) 92 (by decide) rfl (not_written refW_are _ (by decide)) (not_written refW_are _ (by decide))).symm)
  rw [b_main_c_5 m m' c hag] <;> rfl
theorem b_main_v27 (hag : Agree m m' c) : Kp[Cert.KernelIdeal.main_v27] = Rv[Cert.ReferenceIdeal.main_v69] := by
  refine (binary_at (ops := preOps) (a := Cert.KernelIdeal.main_v6) (b := Cert.KernelIdeal.main_v26) (y := Cert.KernelIdeal.main_v27) (ha := ⟨by decide, by rfl⟩) (hb := ⟨by decide, by rfl⟩) (hy := ⟨by decide, by rfl⟩) 37 (by decide) rfl (not_written preW_are _ (by decide)) (not_written preW_are _ (by decide)) (not_written preW_are _ (by decide))).trans
    (Eq.trans ?_ (binary_at (ops := refOps) (a := Cert.ReferenceIdeal.main_v6) (b := Cert.ReferenceIdeal.main_v68) (y := Cert.ReferenceIdeal.main_v69) (ha := ⟨by decide, by rfl⟩) (hb := ⟨by decide, by rfl⟩) (hy := ⟨by decide, by rfl⟩) 93 (by decide) rfl (not_written refW_are _ (by decide)) (not_written refW_are _ (by decide)) (not_written refW_are _ (by decide))).symm)
  rw [a_main_v6 m m' c hag, b_main_v26 m m' c hag] <;> rfl
theorem b_main_v28 (hag : Agree m m' c) : Kp[Cert.KernelIdeal.main_v28] = Rv[Cert.ReferenceIdeal.main_v70] := by
  refine (ternary_at (ops := preOps) (c := Cert.KernelIdeal.main_v25) (a := Cert.KernelIdeal.main_v27) (b := Cert.KernelIdeal.main_v6) (y := Cert.KernelIdeal.main_v28) (hc := ⟨by decide, by rfl⟩) (ha := ⟨by decide, by rfl⟩) (hb := ⟨by decide, by rfl⟩) (hy := ⟨by decide, by rfl⟩) 38 (by decide) rfl (not_written preW_are _ (by decide)) (not_written preW_are _ (by decide)) (not_written preW_are _ (by decide)) (not_written preW_are _ (by decide))).trans
    (Eq.trans ?_ (ternary_at (ops := refOps) (c := Cert.ReferenceIdeal.main_v67) (a := Cert.ReferenceIdeal.main_v69) (b := Cert.ReferenceIdeal.main_v6) (y := Cert.ReferenceIdeal.main_v70) (hc := ⟨by decide, by rfl⟩) (ha := ⟨by decide, by rfl⟩) (hb := ⟨by decide, by rfl⟩) (hy := ⟨by decide, by rfl⟩) 94 (by decide) rfl (not_written refW_are _ (by decide)) (not_written refW_are _ (by decide)) (not_written refW_are _ (by decide)) (not_written refW_are _ (by decide))).symm)
  rw [b_main_v25 m m' c hag, b_main_v27 m m' c hag, a_main_v6 m m' c hag] <;> rfl
theorem b_main_v29 (hag : Agree m m' c) : Kp[Cert.KernelIdeal.main_v29] = Rv[Cert.ReferenceIdeal.main_v71] := by
  refine (unary_at (ops := preOps) (x := Cert.KernelIdeal.main_v28) (y := Cert.KernelIdeal.main_v29) (hx := ⟨by decide, by rfl⟩) (hy := ⟨by decide, by rfl⟩) 39 (by decide) rfl (not_written preW_are _ (by decide)) (not_written preW_are _ (by decide))).trans
    (Eq.trans ?_ (unary_at (ops := refOps) (x := Cert.ReferenceIdeal.main_v70) (y := Cert.ReferenceIdeal.main_v71) (hx := ⟨by decide, by rfl⟩) (hy := ⟨by decide, by rfl⟩) 95 (by decide) rfl (not_written refW_are _ (by decide)) (not_written refW_are _ (by decide))).symm)
  rw [b_main_v28 m m' c hag] <;> rfl
theorem b_main_v30 (hag : Agree m m' c) : Kp[Cert.KernelIdeal.main_v30] = Rv[Cert.ReferenceIdeal.main_v72] := by
  refine (binary_at (ops := preOps) (a := Cert.KernelIdeal.main_v15) (b := Cert.KernelIdeal.main_v29) (y := Cert.KernelIdeal.main_v30) (ha := ⟨by decide, by rfl⟩) (hb := ⟨by decide, by rfl⟩) (hy := ⟨by decide, by rfl⟩) 40 (by decide) rfl (not_written preW_are _ (by decide)) (not_written preW_are _ (by decide)) (not_written preW_are _ (by decide))).trans
    (Eq.trans ?_ (binary_at (ops := refOps) (a := Cert.ReferenceIdeal.main_v57) (b := Cert.ReferenceIdeal.main_v71) (y := Cert.ReferenceIdeal.main_v72) (ha := ⟨by decide, by rfl⟩) (hb := ⟨by decide, by rfl⟩) (hy := ⟨by decide, by rfl⟩) 96 (by decide) rfl (not_written refW_are _ (by decide)) (not_written refW_are _ (by decide)) (not_written refW_are _ (by decide))).symm)
  rw [b_main_v15 m m' c hag, b_main_v29 m m' c hag] <;> rfl
theorem b_main_v31 (hag : Agree m m' c) : Kp[Cert.KernelIdeal.main_v31] = Rv[Cert.ReferenceIdeal.main_v73] := by
  refine (binary_at (ops := preOps) (a := Cert.KernelIdeal.main_v23) (b := Cert.KernelIdeal.main_v30) (y := Cert.KernelIdeal.main_v31) (ha := ⟨by decide, by rfl⟩) (hb := ⟨by decide, by rfl⟩) (hy := ⟨by decide, by rfl⟩) 41 (by decide) rfl (not_written preW_are _ (by decide)) (not_written preW_are _ (by decide)) (not_written preW_are _ (by decide))).trans
    (Eq.trans ?_ (binary_at (ops := refOps) (a := Cert.ReferenceIdeal.main_v65) (b := Cert.ReferenceIdeal.main_v72) (y := Cert.ReferenceIdeal.main_v73) (ha := ⟨by decide, by rfl⟩) (hb := ⟨by decide, by rfl⟩) (hy := ⟨by decide, by rfl⟩) 97 (by decide) rfl (not_written refW_are _ (by decide)) (not_written refW_are _ (by decide)) (not_written refW_are _ (by decide))).symm)
  rw [b_main_v23 m m' c hag, b_main_v30 m m' c hag] <;> rfl

end Cert.Proof.Lines

end
-- ==== Proof.StepsT.lean ====
/-
  The kernel's second line against the reference, operation by operation.

  The 57 operations after the region are, in order and with the same functions, the reference's operations 43 to 65 (layer
  one: gather the rows of x·W1 at the edges' sources, scale by the normalisation, scatter-add at the targets, add the bias,
  rectify; then the product with W2) and 98 to 131 (layer two the same way, then the log-softmax along the rows). What the
  second line finds: the edge lists, the normalisation and the arguments as the first line left them (equal to the
  reference's by the earlier equations; the normalisation equal to BOTH of the reference's copies), and the region's result
  array, which holds the host product x·W1 of the arguments: the reference's operation 10.
-/
import proofs.«164817_j62955630625290_2_alg».proof.Proof.Lines
import proofs.«164817_j62955630625290_2_alg».proof.Proof.StepsA
import proofs.«164817_j62955630625290_2_alg».proof.Proof.StepsB
import proofs.«164817_j62955630625290_2_alg».proof.Proof.Product

noncomputable section

open Idealize.ShloMosaic Idealize.ShloMosaic.TcCoe Idealize.SL.Sem Idealize.ShloMosaic.StableHlo
open Cert.LibStraightLine

namespace Cert.Proof.Lines

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

-- an operation of a line is recognised as the builder's application it is written as, its function read off as it stands
attribute [local irreducible] StableHlo.nullary StableHlo.unary StableHlo.binary StableHlo.ternary StableHlo.reshape

local notation:max "Kp[" r "]" => after preOps (launchContents m c) (Proc.devRef Proc.tc r)
local notation:max "Kt[" r "]" => after tailOps (exitV m c) (Proc.devRef Proc.tc r)
local notation:max "Rv[" r "]" => after refOps (launchContents m' c) (Proc.devRef Proc.tc r)

theorem t_in_main_v3 (hag : Agree m m' c) : Kt[Cert.KernelIdeal.main_v3] = Rv[Cert.ReferenceIdeal.main_v3] :=
  (carry m c _ (by decide) (by decide)).trans (a_main_v3 m m' c hag)
theorem t_in_main_v6 (hag : Agree m m' c) : Kt[Cert.KernelIdeal.main_v6] = Rv[Cert.ReferenceIdeal.main_v6] :=
  (carry m c _ (by decide) (by decide)).trans (a_main_v6 m m' c hag)
theorem t_in_main_v31_first (hag : Agree m m' c) : Kt[Cert.KernelIdeal.main_v31] = Rv[Cert.ReferenceIdeal.main_v32] :=
  (carry m c _ (by decide) (by decide)).trans (a_main_v31 m m' c hag)
theorem t_in_main_v31_second (hag : Agree m m' c) : Kt[Cert.KernelIdeal.main_v31] = Rv[Cert.ReferenceIdeal.main_v73] :=
  (carry m c _ (by decide) (by decide)).trans (b_main_v31 m m' c hag)
theorem t_in_main_arg4 (hag : Agree m m' c) : Kt[Cert.KernelIdeal.main_arg4] = Rv[Cert.ReferenceIdeal.main_arg4] :=
  (carry m c _ (by decide) (by decide)).trans (a_main_arg4 m m' c hag)
theorem t_in_main_arg5 (hag : Agree m m' c) : Kt[Cert.KernelIdeal.main_arg5] = Rv[Cert.ReferenceIdeal.main_arg5] :=
  (carry m c _ (by decide) (by decide)).trans (a_main_arg5 m m' c hag)
theorem t_in_main_arg6 (hag : Agree m m' c) : Kt[Cert.KernelIdeal.main_arg6] = Rv[Cert.ReferenceIdeal.main_arg6] :=
  (carry m c _ (by decide) (by decide)).trans (a_main_arg6 m m' c hag)
/-- The region's result array is the reference's x·W1. -/
theorem t_in_main_v32 (hag : Agree m m' c) : Kt[Cert.KernelIdeal.main_v32] = Rv[Cert.ReferenceIdeal.main_v9] := by
  refine (carry_result m c).trans ((Cert.Proof.Product.final m c).trans
    (Eq.trans ?_ (binary_at (ops := refOps) (a := Cert.ReferenceIdeal.main_arg0) (b := Cert.ReferenceIdeal.main_arg3) (y := Cert.ReferenceIdeal.main_v9) (ha := ⟨by decide, by rfl⟩) (hb := ⟨by decide, by rfl⟩) (hy := ⟨by decide, by rfl⟩) 10 (by decide) rfl (not_written refW_are _ (by decide)) (not_written refW_are _ (by decide)) (not_written refW_are _ (by decide))).symm))
  rw [(V_eq m c _).trans (a_main_arg0 m m' c hag), (V_eq m c _).trans (a_main_arg3 m m' c hag)] <;> rfl

theorem t_main_c_6 (hag : Agree m m' c) : Kt[Cert.KernelIdeal.main_c_6] = Rv[Cert.ReferenceIdeal.main_c_6] := by
  refine (nullary_at (ops := tailOps) (y := Cert.KernelIdeal.main_c_6) (hy := ⟨by decide, by rfl⟩) 0 (by decide) rfl (not_written tailW_are _ (by decide))).trans
    (Eq.trans ?_ (nullary_at (ops := refOps) (y := Cert.ReferenceIdeal.main_c_6) (hy := ⟨by decide, by rfl⟩) 43 (by decide) rfl (not_written refW_are _ (by decide))).symm)
  rfl
theorem t_main_v33 (hag : Agree m m' c) : Kt[Cert.KernelIdeal.main_v33] = Rv[Cert.ReferenceIdeal.main_v33] := by
  refine (unary_at (ops := tailOps) (x := Cert.KernelIdeal.main_c_6) (y := Cert.KernelIdeal.main_v33) (hx := ⟨by decide, by rfl⟩) (hy := ⟨by decide, by rfl⟩) 1 (by decide) rfl (not_written tailW_are _ (by decide)) (not_written tailW_are _ (by decide))).trans
    (Eq.trans ?_ (unary_at (ops := refOps) (x := Cert.ReferenceIdeal.main_c_6) (y := Cert.ReferenceIdeal.main_v33) (hx := ⟨by decide, by rfl⟩) (hy := ⟨by decide, by rfl⟩) 44 (by decide) rfl (not_written refW_are _ (by decide)) (not_written refW_are _ (by decide))).symm)
  rw [t_main_c_6 m m' c hag] <;> rfl
theorem t_main_v34 (hag : Agree m m' c) : Kt[Cert.KernelIdeal.main_v34] = Rv[Cert.ReferenceIdeal.main_v34] := by
  refine (binary_at (ops := tailOps) (a := Cert.KernelIdeal.main_v3) (b := Cert.KernelIdeal.main_v33) (y := Cert.KernelIdeal.main_v34) (ha := ⟨by decide, by rfl⟩) (hb := ⟨by decide, by rfl⟩) (hy := ⟨by decide, by rfl⟩) 2 (by decide) rfl (not_written tailW_are _ (by decide)) (not_written tailW_are _ (by decide)) (not_written tailW_are _ (by decide))).trans
    (Eq.trans ?_ (binary_at (ops := refOps) (a := Cert.ReferenceIdeal.main_v3) (b := Cert.ReferenceIdeal.main_v33) (y := Cert.ReferenceIdeal.main_v34) (ha := ⟨by decide, by rfl⟩) (hb := ⟨by decide, by rfl⟩) (hy := ⟨by decide, by rfl⟩) 45 (by decide) rfl (not_written refW_are _ (by decide)) (not_written refW_are _ (by decide)) (not_written refW_are _ (by decide))).symm)
  rw [t_in_main_v3 m m' c hag, t_main_v33 m m' c hag] <;> rfl
theorem t_main_c_7 (hag : Agree m m' c) : Kt[Cert.KernelIdeal.main_c_7] = Rv[Cert.ReferenceIdeal.main_c_7] := by
  refine (nullary_at (ops := tailOps) (y := Cert.KernelIdeal.main_c_7) (hy := ⟨by decide, by rfl⟩) 3 (by decide) rfl (not_written tailW_are _ (by decide))).trans
    (Eq.trans ?_ (nullary_at (ops := refOps) (y := Cert.ReferenceIdeal.main_c_7) (hy := ⟨by decide, by rfl⟩) 46 (by decide) rfl (not_written refW_are _ (by decide))).symm)
  rfl
theorem t_main_v35 (hag : Agree m m' c) : Kt[Cert.KernelIdeal.main_v35] = Rv[Cert.ReferenceIdeal.main_v35] := by
  refine (unary_at (ops := tailOps) (x := Cert.KernelIdeal.main_c_7) (y := Cert.KernelIdeal.main_v35) (hx := ⟨by decide, by rfl⟩) (hy := ⟨by decide, by rfl⟩) 4 (by decide) rfl (not_written tailW_are _ (by decide)) (not_written tailW_are _ (by decide))).trans
    (Eq.trans ?_ (unary_at (ops := refOps) (x := Cert.ReferenceIdeal.main_c_7) (y := Cert.ReferenceIdeal.main_v35) (hx := ⟨by decide, by rfl⟩) (hy := ⟨by decide, by rfl⟩) 47 (by decide) rfl (not_written refW_are _ (by decide)) (not_written refW_are _ (by decide))).symm)
  rw [t_main_c_7 m m' c hag] <;> rfl
theorem t_main_v36 (hag : Agree m m' c) : Kt[Cert.KernelIdeal.main_v36] = Rv[Cert.ReferenceIdeal.main_v36] := by
  refine (binary_at (ops := tailOps) (a := Cert.KernelIdeal.main_v3) (b := Cert.KernelIdeal.main_v35) (y := Cert.KernelIdeal.main_v36) (ha := ⟨by decide, by rfl⟩) (hb := ⟨by decide, by rfl⟩) (hy := ⟨by decide, by rfl⟩) 5 (by decide) rfl (not_written tailW_are _ (by decide)) (not_written tailW_are _ (by decide)) (not_written tailW_are _ (by decide))).trans
    (Eq.trans ?_ (binary_at (ops := refOps) (a := Cert.ReferenceIdeal.main_v3) (b := Cert.ReferenceIdeal.main_v35) (y := Cert.ReferenceIdeal.main_v36) (ha := ⟨by decide, by rfl⟩) (hb := ⟨by decide, by rfl⟩) (hy := ⟨by decide, by rfl⟩) 48 (by decide) rfl (not_written refW_are _ (by decide)) (not_written refW_are _ (by decide)) (not_written refW_are _ (by decide))).symm)
  rw [t_in_main_v3 m m' c hag, t_main_v35 m m' c hag] <;> rfl
theorem t_main_v37 (hag : Agree m m' c) : Kt[Cert.KernelIdeal.main_v37] = Rv[Cert.ReferenceIdeal.main_v37] := by
  refine (ternary_at (ops := tailOps) (c := Cert.KernelIdeal.main_v34) (a := Cert.KernelIdeal.main_v36) (b := Cert.KernelIdeal.main_v3) (y := Cert.KernelIdeal.main_v37) (hc := ⟨by decide, by rfl⟩) (ha := ⟨by decide, by rfl⟩) (hb := ⟨by decide, by rfl⟩) (hy := ⟨by decide, by rfl⟩) 6 (by decide) rfl (not_written tailW_are _ (by decide)) (not_written tailW_are _ (by decide)) (not_written tailW_are _ (by decide)) (not_written tailW_are _ (by decide))).trans
    (Eq.trans ?_ (ternary_at (ops := refOps) (c := Cert.ReferenceIdeal.main_v34) (a := Cert.ReferenceIdeal.main_v36) (b := Cert.ReferenceIdeal.main_v3) (y := Cert.ReferenceIdeal.main_v37) (hc := ⟨by decide, by rfl⟩) (ha := ⟨by decide, by rfl⟩) (hb := ⟨by decide, by rfl⟩) (hy := ⟨by decide, by rfl⟩) 49 (by decide) rfl (not_written refW_are _ (by decide)) (not_written refW_are _ (by decide)) (not_written refW_are _ (by decide)) (not_written refW_are _ (by decide))).symm)
  rw [t_main_v34 m m' c hag, t_main_v36 m m' c hag, t_in_main_v3 m m' c hag] <;> rfl
theorem t_main_v38 (hag : Agree m m' c) : Kt[Cert.KernelIdeal.main_v38] = Rv[Cert.ReferenceIdeal.main_v38] := by
  refine (unary_at (ops := tailOps) (x := Cert.KernelIdeal.main_v37) (y := Cert.KernelIdeal.main_v38) (hx := ⟨by decide, by rfl⟩) (hy := ⟨by decide, by rfl⟩) 7 (by decide) rfl (not_written tailW_are _ (by decide)) (not_written tailW_are _ (by decide))).trans
    (Eq.trans ?_ (unary_at (ops := refOps) (x := Cert.ReferenceIdeal.main_v37) (y := Cert.ReferenceIdeal.main_v38) (hx := ⟨by decide, by rfl⟩) (hy := ⟨by decide, by rfl⟩) 50 (by decide) rfl (not_written refW_are _ (by decide)) (not_written refW_are _ (by decide))).symm)
  rw [t_main_v37 m m' c hag] <;> rfl
theorem t_main_v39 (hag : Agree m m' c) : Kt[Cert.KernelIdeal.main_v39] = Rv[Cert.ReferenceIdeal.main_v39] := by
  refine (binary_at (ops := tailOps) (a := Cert.KernelIdeal.main_v32) (b := Cert.KernelIdeal.main_v38) (y := Cert.KernelIdeal.main_v39) (ha := ⟨by decide, by rfl⟩) (hb := ⟨by decide, by rfl⟩) (hy := ⟨by decide, by rfl⟩) 8 (by decide) rfl (not_written tailW_are _ (by decide)) (not_written tailW_are _ (by decide)) (not_written tailW_are _ (by decide))).trans
    (Eq.trans ?_ (binary_at (ops := refOps) (a := Cert.ReferenceIdeal.main_v9) (b := Cert.ReferenceIdeal.main_v38) (y := Cert.ReferenceIdeal.main_v39) (ha := ⟨by decide, by rfl⟩) (hb := ⟨by decide, by rfl⟩) (hy := ⟨by decide, by rfl⟩) 51 (by decide) rfl (not_written refW_are _ (by decide)) (not_written refW_are _ (by decide)) (not_written refW_are _ (by decide))).symm)
  rw [t_in_main_v32 m m' c hag, t_main_v38 m m' c hag] <;> rfl
theorem t_main_v40 (hag : Agree m m' c) : Kt[Cert.KernelIdeal.main_v40] = Rv[Cert.ReferenceIdeal.main_v40] := by
  refine (unary_at (ops := tailOps) (x := Cert.KernelIdeal.main_v31) (y := Cert.KernelIdeal.main_v40) (hx := ⟨by decide, by rfl⟩) (hy := ⟨by decide, by rfl⟩) 9 (by decide) rfl (not_written tailW_are _ (by decide)) (not_written tailW_are _ (by decide))).trans
    (Eq.trans ?_ (unary_at (ops := refOps) (x := Cert.ReferenceIdeal.main_v32) (y := Cert.ReferenceIdeal.main_v40) (hx := ⟨by decide, by rfl⟩) (hy := ⟨by decide, by rfl⟩) 52 (by decide) rfl (not_written refW_are _ (by decide)) (not_written refW_are _ (by decide))).symm)
  rw [t_in_main_v31_first m m' c hag] <;> rfl
theorem t_main_v41 (hag : Agree m m' c) : Kt[Cert.KernelIdeal.main_v41] = Rv[Cert.ReferenceIdeal.main_v41] := by
  refine (unary_at (ops := tailOps) (x := Cert.KernelIdeal.main_v40) (y := Cert.KernelIdeal.main_v41) (hx := ⟨by decide, by rfl⟩) (hy := ⟨by decide, by rfl⟩) 10 (by decide) rfl (not_written tailW_are _ (by decide)) (not_written tailW_are _ (by decide))).trans
    (Eq.trans ?_ (unary_at (ops := refOps) (x := Cert.ReferenceIdeal.main_v40) (y := Cert.ReferenceIdeal.main_v41) (hx := ⟨by decide, by rfl⟩) (hy := ⟨by decide, by rfl⟩) 53 (by decide) rfl (not_written refW_are _ (by decide)) (not_written refW_are _ (by decide))).symm)
  rw [t_main_v40 m m' c hag] <;> rfl
theorem t_main_v42 (hag : Agree m m' c) : Kt[Cert.KernelIdeal.main_v42] = Rv[Cert.ReferenceIdeal.main_v42] := by
  refine (binary_at (ops := tailOps) (a := Cert.KernelIdeal.main_v39) (b := Cert.KernelIdeal.main_v41) (y := Cert.KernelIdeal.main_v42) (ha := ⟨by decide, by rfl⟩) (hb := ⟨by decide, by rfl⟩) (hy := ⟨by decide, by rfl⟩) 11 (by decide) rfl (not_written tailW_are _ (by decide)) (not_written tailW_are _ (by decide)) (not_written tailW_are _ (by decide))).trans
    (Eq.trans ?_ (binary_at (ops := refOps) (a := Cert.ReferenceIdeal.main_v39) (b := Cert.ReferenceIdeal.main_v41) (y := Cert.ReferenceIdeal.main_v42) (ha := ⟨by decide, by rfl⟩) (hb := ⟨by decide, by rfl⟩) (hy := ⟨by decide, by rfl⟩) 54 (by decide) rfl (not_written refW_are _ (by decide)) (not_written refW_are _ (by decide)) (not_written refW_are _ (by decide))).symm)
  rw [t_main_v39 m m' c hag, t_main_v41 m m' c hag] <;> rfl
theorem t_main_cst_8 (hag : Agree m m' c) : Kt[Cert.KernelIdeal.main_cst_8] = Rv[Cert.ReferenceIdeal.main_cst_8] := by
  refine (nullary_at (ops := tailOps) (y := Cert.KernelIdeal.main_cst_8) (hy := ⟨by decide, by rfl⟩) 12 (by decide) rfl (not_written tailW_are _ (by decide))).trans
    (Eq.trans ?_ (nullary_at (ops := refOps) (y := Cert.ReferenceIdeal.main_cst_8) (hy := ⟨by decide, by rfl⟩) 55 (by decide) rfl (not_written refW_are _ (by decide))).symm)
  rfl
theorem t_main_v43 (hag : Agree m m' c) : Kt[Cert.KernelIdeal.main_v43] = Rv[Cert.ReferenceIdeal.main_v43] := by
  refine (unary_at (ops := tailOps) (x := Cert.KernelIdeal.main_cst_8) (y := Cert.KernelIdeal.main_v43) (hx := ⟨by decide, by rfl⟩) (hy := ⟨by decide, by rfl⟩) 13 (by decide) rfl (not_written tailW_are _ (by decide)) (not_written tailW_are _ (by decide))).trans
    (Eq.trans ?_ (unary_at (ops := refOps) (x := Cert.ReferenceIdeal.main_cst_8) (y := Cert.ReferenceIdeal.main_v43) (hx := ⟨by decide, by rfl⟩) (hy := ⟨by decide, by rfl⟩) 56 (by decide) rfl (not_written refW_are _ (by decide)) (not_written refW_are _ (by decide))).symm)
  rw [t_main_cst_8 m m' c hag] <;> rfl
theorem t_main_v44 (hag : Agree m m' c) : Kt[Cert.KernelIdeal.main_v44] = Rv[Cert.ReferenceIdeal.main_v44] := by
  refine (unary_at (ops := tailOps) (x := Cert.KernelIdeal.main_v6) (y := Cert.KernelIdeal.main_v44) (hx := ⟨by decide, by rfl⟩) (hy := ⟨by decide, by rfl⟩) 14 (by decide) rfl (not_written tailW_are _ (by decide)) (not_written tailW_are _ (by decide))).trans
    (Eq.trans ?_ (unary_at (ops := refOps) (x := Cert.ReferenceIdeal.main_v6) (y := Cert.ReferenceIdeal.main_v44) (hx := ⟨by decide, by rfl⟩) (hy := ⟨by decide, by rfl⟩) 57 (by decide) rfl (not_written refW_are _ (by decide)) (not_written refW_are _ (by decide))).symm)
  rw [t_in_main_v6 m m' c hag] <;> rfl
theorem t_main_v45 (hag : Agree m m' c) : Kt[Cert.KernelIdeal.main_v45] = Rv[Cert.ReferenceIdeal.main_v45] := by
  refine (ternary_at (ops := tailOps) (c := Cert.KernelIdeal.main_v43) (a := Cert.KernelIdeal.main_v44) (b := Cert.KernelIdeal.main_v42) (y := Cert.KernelIdeal.main_v45) (hc := ⟨by decide, by rfl⟩) (ha := ⟨by decide, by rfl⟩) (hb := ⟨by decide, by rfl⟩) (hy := ⟨by decide, by rfl⟩) 15 (by decide) rfl (not_written tailW_are _ (by decide)) (not_written tailW_are _ (by decide)) (not_written tailW_are _ (by decide)) (not_written tailW_are _ (by decide))).trans
    (Eq.trans ?_ (ternary_at (ops := refOps) (c := Cert.ReferenceIdeal.main_v43) (a := Cert.ReferenceIdeal.main_v44) (b := Cert.ReferenceIdeal.main_v42) (y := Cert.ReferenceIdeal.main_v45) (hc := ⟨by decide, by rfl⟩) (ha := ⟨by decide, by rfl⟩) (hb := ⟨by decide, by rfl⟩) (hy := ⟨by decide, by rfl⟩) 58 (by decide) rfl (not_written refW_are _ (by decide)) (not_written refW_are _ (by decide)) (not_written refW_are _ (by decide)) (not_written refW_are _ (by decide))).symm)
  rw [t_main_v43 m m' c hag, t_main_v44 m m' c hag, t_main_v42 m m' c hag] <;> rfl
theorem t_main_v46 (hag : Agree m m' c) : Kt[Cert.KernelIdeal.main_v46] = Rv[Cert.ReferenceIdeal.main_v46] := by
  refine (unary_at (ops := tailOps) (x := Cert.KernelIdeal.main_arg4) (y := Cert.KernelIdeal.main_v46) (hx := ⟨by decide, by rfl⟩) (hy := ⟨by decide, by rfl⟩) 16 (by decide) rfl (not_written tailW_are _ (by decide)) (not_written tailW_are _ (by decide))).trans
    (Eq.trans ?_ (unary_at (ops := refOps) (x := Cert.ReferenceIdeal.main_arg4) (y := Cert.ReferenceIdeal.main_v46) (hx := ⟨by decide, by rfl⟩) (hy := ⟨by decide, by rfl⟩) 59 (by decide) rfl (not_written refW_are _ (by decide)) (not_written refW_are _ (by decide))).symm)
  rw [t_in_main_arg4 m m' c hag] <;> rfl
theorem t_main_v47 (hag : Agree m m' c) : Kt[Cert.KernelIdeal.main_v47] = Rv[Cert.ReferenceIdeal.main_v47] := by
  refine (unary_at (ops := tailOps) (x := Cert.KernelIdeal.main_v46) (y := Cert.KernelIdeal.main_v47) (hx := ⟨by decide, by rfl⟩) (hy := ⟨by decide, by rfl⟩) 17 (by decide) rfl (not_written tailW_are _ (by decide)) (not_written tailW_are _ (by decide))).trans
    (Eq.trans ?_ (unary_at (ops := refOps) (x := Cert.ReferenceIdeal.main_v46) (y := Cert.ReferenceIdeal.main_v47) (hx := ⟨by decide, by rfl⟩) (hy := ⟨by decide, by rfl⟩) 60 (by decide) rfl (not_written refW_are _ (by decide)) (not_written refW_are _ (by decide))).symm)
  rw [t_main_v46 m m' c hag] <;> rfl
theorem t_main_v48 (hag : Agree m m' c) : Kt[Cert.KernelIdeal.main_v48] = Rv[Cert.ReferenceIdeal.main_v48] := by
  refine (binary_at (ops := tailOps) (a := Cert.KernelIdeal.main_v45) (b := Cert.KernelIdeal.main_v47) (y := Cert.KernelIdeal.main_v48) (ha := ⟨by decide, by rfl⟩) (hb := ⟨by decide, by rfl⟩) (hy := ⟨by decide, by rfl⟩) 18 (by decide) rfl (not_written tailW_are _ (by decide)) (not_written tailW_are _ (by decide)) (not_written tailW_are _ (by decide))).trans
    (Eq.trans ?_ (binary_at (ops := refOps) (a := Cert.ReferenceIdeal.main_v45) (b := Cert.ReferenceIdeal.main_v47) (y := Cert.ReferenceIdeal.main_v48) (ha := ⟨by decide, by rfl⟩) (hb := ⟨by decide, by rfl⟩) (hy := ⟨by decide, by rfl⟩) 61 (by decide) rfl (not_written refW_are _ (by decide)) (not_written refW_are _ (by decide)) (not_written refW_are _ (by decide))).symm)
  rw [t_main_v45 m m' c hag, t_main_v47 m m' c hag] <;> rfl
theorem t_main_call1_cst (hag : Agree m m' c) : Kt[Cert.KernelIdeal.main_call1_cst] = Rv[Cert.ReferenceIdeal.main_call1_cst] := by
  refine (nullary_at (ops := tailOps) (y := Cert.KernelIdeal.main_call1_cst) (hy := ⟨by decide, by rfl⟩) 19 (by decide) rfl (not_written tailW_are _ (by decide))).trans
    (Eq.trans ?_ (nullary_at (ops := refOps) (y := Cert.ReferenceIdeal.main_call1_cst) (hy := ⟨by decide, by rfl⟩) 62 (by decide) rfl (not_written refW_are _ (by decide))).symm)
  rfl
theorem t_main_call1_v0 (hag : Agree m m' c) : Kt[Cert.KernelIdeal.main_call1_v0] = Rv[Cert.ReferenceIdeal.main_call1_v0] := by
  refine (unary_at (ops := tailOps) (x := Cert.KernelIdeal.main_call1_cst) (y := Cert.KernelIdeal.main_call1_v0) (hx := ⟨by decide, by rfl⟩) (hy := ⟨by decide, by rfl⟩) 20 (by decide) rfl (not_written tailW_are _ (by decide)) (not_written tailW_are _ (by decide))).trans
    (Eq.trans ?_ (unary_at (ops := refOps) (x := Cert.ReferenceIdeal.main_call1_cst) (y := Cert.ReferenceIdeal.main_call1_v0) (hx := ⟨by decide, by rfl⟩) (hy := ⟨by decide, by rfl⟩) 63 (by decide) rfl (not_written refW_are _ (by decide)) (not_written refW_are _ (by decide))).symm)
  rw [t_main_call1_cst m m' c hag] <;> rfl
theorem t_main_v49 (hag : Agree m m' c) : Kt[Cert.KernelIdeal.main_v49] = Rv[Cert.ReferenceIdeal.main_v49] := by
  refine (binary_at (ops := tailOps) (a := Cert.KernelIdeal.main_v48) (b := Cert.KernelIdeal.main_call1_v0) (y := Cert.KernelIdeal.main_v49) (ha := ⟨by decide, by rfl⟩) (hb := ⟨by decide, by rfl⟩) (hy := ⟨by decide, by rfl⟩) 21 (by decide) rfl (not_written tailW_are _ (by decide)) (not_written tailW_are _ (by decide)) (not_written tailW_are _ (by decide))).trans
    (Eq.trans ?_ (binary_at (ops := refOps) (a := Cert.ReferenceIdeal.main_v48) (b := Cert.ReferenceIdeal.main_call1_v0) (y := Cert.ReferenceIdeal.main_v49) (ha := ⟨by decide, by rfl⟩) (hb := ⟨by decide, by rfl⟩) (hy := ⟨by decide, by rfl⟩) 64 (by decide) rfl (not_written refW_are _ (by decide)) (not_written refW_are _ (by decide)) (not_written refW_are _ (by decide))).symm)
  rw [t_main_v48 m m' c hag, t_main_call1_v0 m m' c hag] <;> rfl
theorem t_main_v50 (hag : Agree m m' c) : Kt[Cert.KernelIdeal.main_v50] = Rv[Cert.ReferenceIdeal.main_v50] := by
  refine (binary_at (ops := tailOps) (a := Cert.KernelIdeal.main_v49) (b := Cert.KernelIdeal.main_arg5) (y := Cert.KernelIdeal.main_v50) (ha := ⟨by decide, by rfl⟩) (hb := ⟨by decide, by rfl⟩) (hy := ⟨by decide, by rfl⟩) 22 (by decide) rfl (not_written tailW_are _ (by decide)) (not_written tailW_are _ (by decide)) (not_written tailW_are _ (by decide))).trans
    (Eq.trans ?_ (binary_at (ops := refOps) (a := Cert.ReferenceIdeal.main_v49) (b := Cert.ReferenceIdeal.main_arg5) (y := Cert.ReferenceIdeal.main_v50) (ha := ⟨by decide, by rfl⟩) (hb := ⟨by decide, by rfl⟩) (hy := ⟨by decide, by rfl⟩) 65 (by decide) rfl (not_written refW_are _ (by decide)) (not_written refW_are _ (by decide)) (not_written refW_are _ (by decide))).symm)
  rw [t_main_v49 m m' c hag, t_in_main_arg5 m m' c hag] <;> rfl
theorem t_main_c_9 (hag : Agree m m' c) : Kt[Cert.KernelIdeal.main_c_9] = Rv[Cert.ReferenceIdeal.main_c_16] := by
  refine (nullary_at (ops := tailOps) (y := Cert.KernelIdeal.main_c_9) (hy := ⟨by decide, by rfl⟩) 23 (by decide) rfl (not_written tailW_are _ (by decide))).trans
    (Eq.trans ?_ (nullary_at (ops := refOps) (y := Cert.ReferenceIdeal.main_c_16) (hy := ⟨by decide, by rfl⟩) 98 (by decide) rfl (not_written refW_are _ (by decide))).symm)
  rfl
theorem t_main_v51 (hag : Agree m m' c) : Kt[Cert.KernelIdeal.main_v51] = Rv[Cert.ReferenceIdeal.main_v74] := by
  refine (unary_at (ops := tailOps) (x := Cert.KernelIdeal.main_c_9) (y := Cert.KernelIdeal.main_v51) (hx := ⟨by decide, by rfl⟩) (hy := ⟨by decide, by rfl⟩) 24 (by decide) rfl (not_written tailW_are _ (by decide)) (not_written tailW_are _ (by decide))).trans
    (Eq.trans ?_ (unary_at (ops := refOps) (x := Cert.ReferenceIdeal.main_c_16) (y := Cert.ReferenceIdeal.main_v74) (hx := ⟨by decide, by rfl⟩) (hy := ⟨by decide, by rfl⟩) 99 (by decide) rfl (not_written refW_are _ (by decide)) (not_written refW_are _ (by decide))).symm)
  rw [t_main_c_9 m m' c hag] <;> rfl
theorem t_main_v52 (hag : Agree m m' c) : Kt[Cert.KernelIdeal.main_v52] = Rv[Cert.ReferenceIdeal.main_v75] := by
  refine (binary_at (ops := tailOps) (a := Cert.KernelIdeal.main_v3) (b := Cert.KernelIdeal.main_v51) (y := Cert.KernelIdeal.main_v52) (ha := ⟨by decide, by rfl⟩) (hb := ⟨by decide, by rfl⟩) (hy := ⟨by decide, by rfl⟩) 25 (by decide) rfl (not_written tailW_are _ (by decide)) (not_written tailW_are _ (by decide)) (not_written tailW_are _ (by decide))).trans
    (Eq.trans ?_ (binary_at (ops := refOps) (a := Cert.ReferenceIdeal.main_v3) (b := Cert.ReferenceIdeal.main_v74) (y := Cert.ReferenceIdeal.main_v75) (ha := ⟨by decide, by rfl⟩) (hb := ⟨by decide, by rfl⟩) (hy := ⟨by decide, by rfl⟩) 100 (by decide) rfl (not_written refW_are _ (by decide)) (not_written refW_are _ (by decide)) (not_written refW_are _ (by decide))).symm)
  rw [t_in_main_v3 m m' c hag, t_main_v51 m m' c hag] <;> rfl
theorem t_main_c_10 (hag : Agree m m' c) : Kt[Cert.KernelIdeal.main_c_10] = Rv[Cert.ReferenceIdeal.main_c_17] := by
  refine (nullary_at (ops := tailOps) (y := Cert.KernelIdeal.main_c_10) (hy := ⟨by decide, by rfl⟩) 26 (by decide) rfl (not_written tailW_are _ (by decide))).trans
    (Eq.trans ?_ (nullary_at (ops := refOps) (y := Cert.ReferenceIdeal.main_c_17) (hy := ⟨by decide, by rfl⟩) 101 (by decide) rfl (not_written refW_are _ (by decide))).symm)
  rfl
theorem t_main_v53 (hag : Agree m m' c) : Kt[Cert.KernelIdeal.main_v53] = Rv[Cert.ReferenceIdeal.main_v76] := by
  refine (unary_at (ops := tailOps) (x := Cert.KernelIdeal.main_c_10) (y := Cert.KernelIdeal.main_v53) (hx := ⟨by decide, by rfl⟩) (hy := ⟨by decide, by rfl⟩) 27 (by decide) rfl (not_written tailW_are _ (by decide)) (not_written tailW_are _ (by decide))).trans
    (Eq.trans ?_ (unary_at (ops := refOps) (x := Cert.ReferenceIdeal.main_c_17) (y := Cert.ReferenceIdeal.main_v76) (hx := ⟨by decide, by rfl⟩) (hy := ⟨by decide, by rfl⟩) 102 (by decide) rfl (not_written refW_are _ (by decide)) (not_written refW_are _ (by decide))).symm)
  rw [t_main_c_10 m m' c hag] <;> rfl
theorem t_main_v54 (hag : Agree m m' c) : Kt[Cert.KernelIdeal.main_v54] = Rv[Cert.ReferenceIdeal.main_v77] := by
  refine (binary_at (ops := tailOps) (a := Cert.KernelIdeal.main_v3) (b := Cert.KernelIdeal.main_v53) (y := Cert.KernelIdeal.main_v54) (ha := ⟨by decide, by rfl⟩) (hb := ⟨by decide, by rfl⟩) (hy := ⟨by decide, by rfl⟩) 28 (by decide) rfl (not_written tailW_are _ (by decide)) (not_written tailW_are _ (by decide)) (not_written tailW_are _ (by decide))).trans
    (Eq.trans ?_ (binary_at (ops := refOps) (a := Cert.ReferenceIdeal.main_v3) (b := Cert.ReferenceIdeal.main_v76) (y := Cert.ReferenceIdeal.main_v77) (ha := ⟨by decide, by rfl⟩) (hb := ⟨by decide, by rfl⟩) (hy := ⟨by decide, by rfl⟩) 103 (by decide) rfl (not_written refW_are _ (by decide)) (not_written refW_are _ (by decide)) (not_written refW_are _ (by decide))).symm)
  rw [t_in_main_v3 m m' c hag, t_main_v53 m m' c hag] <;> rfl
theorem t_main_v55 (hag : Agree m m' c) : Kt[Cert.KernelIdeal.main_v55] = Rv[Cert.ReferenceIdeal.main_v78] := by
  refine (ternary_at (ops := tailOps) (c := Cert.KernelIdeal.main_v52) (a := Cert.KernelIdeal.main_v54) (b := Cert.KernelIdeal.main_v3) (y := Cert.KernelIdeal.main_v55) (hc := ⟨by decide, by rfl⟩) (ha := ⟨by decide, by rfl⟩) (hb := ⟨by decide, by rfl⟩) (hy := ⟨by decide, by rfl⟩) 29 (by decide) rfl (not_written tailW_are _ (by decide)) (not_written tailW_are _ (by decide)) (not_written tailW_are _ (by decide)) (not_written tailW_are _ (by decide))).trans
    (Eq.trans ?_ (ternary_at (ops := refOps) (c := Cert.ReferenceIdeal.main_v75) (a := Cert.ReferenceIdeal.main_v77) (b := Cert.ReferenceIdeal.main_v3) (y := Cert.ReferenceIdeal.main_v78) (hc := ⟨by decide, by rfl⟩) (ha := ⟨by decide, by rfl⟩) (hb := ⟨by decide, by rfl⟩) (hy := ⟨by decide, by rfl⟩) 104 (by decide) rfl (not_written refW_are _ (by decide)) (not_written refW_are _ (by decide)) (not_written refW_are _ (by decide)) (not_written refW_are _ (by decide))).symm)
  rw [t_main_v52 m m' c hag, t_main_v54 m m' c hag, t_in_main_v3 m m' c hag] <;> rfl
theorem t_main_v56 (hag : Agree m m' c) : Kt[Cert.KernelIdeal.main_v56] = Rv[Cert.ReferenceIdeal.main_v79] := by
  refine (unary_at (ops := tailOps) (x := Cert.KernelIdeal.main_v55) (y := Cert.KernelIdeal.main_v56) (hx := ⟨by decide, by rfl⟩) (hy := ⟨by decide, by rfl⟩) 30 (by decide) rfl (not_written tailW_are _ (by decide)) (not_written tailW_are _ (by decide))).trans
    (Eq.trans ?_ (unary_at (ops := refOps) (x := Cert.ReferenceIdeal.main_v78) (y := Cert.ReferenceIdeal.main_v79) (hx := ⟨by decide, by rfl⟩) (hy := ⟨by decide, by rfl⟩) 105 (by decide) rfl (not_written refW_are _ (by decide)) (not_written refW_are _ (by decide))).symm)
  rw [t_main_v55 m m' c hag] <;> rfl
theorem t_main_v57 (hag : Agree m m' c) : Kt[Cert.KernelIdeal.main_v57] = Rv[Cert.ReferenceIdeal.main_v80] := by
  refine (binary_at (ops := tailOps) (a := Cert.KernelIdeal.main_v50) (b := Cert.KernelIdeal.main_v56) (y := Cert.KernelIdeal.main_v57) (ha := ⟨by decide, by rfl⟩) (hb := ⟨by decide, by rfl⟩) (hy := ⟨by decide, by rfl⟩) 31 (by decide) rfl (not_written tailW_are _ (by decide)) (not_written tailW_are _ (by decide)) (not_written tailW_are _ (by decide))).trans
    (Eq.trans ?_ (binary_at (ops := refOps) (a := Cert.ReferenceIdeal.main_v50) (b := Cert.ReferenceIdeal.main_v79) (y := Cert.ReferenceIdeal.main_v80) (ha := ⟨by decide, by rfl⟩) (hb := ⟨by decide, by rfl⟩) (hy := ⟨by decide, by rfl⟩) 106 (by decide) rfl (not_written refW_are _ (by decide)) (not_written refW_are _ (by decide)) (not_written refW_are _ (by decide))).symm)
  rw [t_main_v50 m m' c hag, t_main_v56 m m' c hag] <;> rfl
theorem t_main_v58 (hag : Agree m m' c) : Kt[Cert.KernelIdeal.main_v58] = Rv[Cert.ReferenceIdeal.main_v81] := by
  refine (unary_at (ops := tailOps) (x := Cert.KernelIdeal.main_v31) (y := Cert.KernelIdeal.main_v58) (hx := ⟨by decide, by rfl⟩) (hy := ⟨by decide, by rfl⟩) 32 (by decide) rfl (not_written tailW_are _ (by decide)) (not_written tailW_are _ (by decide))).trans
    (Eq.trans ?_ (unary_at (ops := refOps) (x := Cert.ReferenceIdeal.main_v73) (y := Cert.ReferenceIdeal.main_v81) (hx := ⟨by decide, by rfl⟩) (hy := ⟨by decide, by rfl⟩) 107 (by decide) rfl (not_written refW_are _ (by decide)) (not_written refW_are _ (by decide))).symm)
  rw [t_in_main_v31_second m m' c hag] <;> rfl
theorem t_main_v59 (hag : Agree m m' c) : Kt[Cert.KernelIdeal.main_v59] = Rv[Cert.ReferenceIdeal.main_v82] := by
  refine (unary_at (ops := tailOps) (x := Cert.KernelIdeal.main_v58) (y := Cert.KernelIdeal.main_v59) (hx := ⟨by decide, by rfl⟩) (hy := ⟨by decide, by rfl⟩) 33 (by decide) rfl (not_written tailW_are _ (by decide)) (not_written tailW_are _ (by decide))).trans
    (Eq.trans ?_ (unary_at (ops := refOps) (x := Cert.ReferenceIdeal.main_v81) (y := Cert.ReferenceIdeal.main_v82) (hx := ⟨by decide, by rfl⟩) (hy := ⟨by decide, by rfl⟩) 108 (by decide) rfl (not_written refW_are _ (by decide)) (not_written refW_are _ (by decide))).symm)
  rw [t_main_v58 m m' c hag] <;> rfl
theorem t_main_v60 (hag : Agree m m' c) : Kt[Cert.KernelIdeal.main_v60] = Rv[Cert.ReferenceIdeal.main_v83] := by
  refine (binary_at (ops := tailOps) (a := Cert.KernelIdeal.main_v57) (b := Cert.KernelIdeal.main_v59) (y := Cert.KernelIdeal.main_v60) (ha := ⟨by decide, by rfl⟩) (hb := ⟨by decide, by rfl⟩) (hy := ⟨by decide, by rfl⟩) 34 (by decide) rfl (not_written tailW_are _ (by decide)) (not_written tailW_are _ (by decide)) (not_written tailW_are _ (by decide))).trans
    (Eq.trans ?_ (binary_at (ops := refOps) (a := Cert.ReferenceIdeal.main_v80) (b := Cert.ReferenceIdeal.main_v82) (y := Cert.ReferenceIdeal.main_v83) (ha := ⟨by decide, by rfl⟩) (hb := ⟨by decide, by rfl⟩) (hy := ⟨by decide, by rfl⟩) 109 (by decide) rfl (not_written refW_are _ (by decide)) (not_written refW_are _ (by decide)) (not_written refW_are _ (by decide))).symm)
  rw [t_main_v57 m m' c hag, t_main_v59 m m' c hag] <;> rfl
theorem t_main_cst_11 (hag : Agree m m' c) : Kt[Cert.KernelIdeal.main_cst_11] = Rv[Cert.ReferenceIdeal.main_cst_18] := by
  refine (nullary_at (ops := tailOps) (y := Cert.KernelIdeal.main_cst_11) (hy := ⟨by decide, by rfl⟩) 35 (by decide) rfl (not_written tailW_are _ (by decide))).trans
    (Eq.trans ?_ (nullary_at (ops := refOps) (y := Cert.ReferenceIdeal.main_cst_18) (hy := ⟨by decide, by rfl⟩) 110 (by decide) rfl (not_written refW_are _ (by decide))).symm)
  rfl
theorem t_main_v61 (hag : Agree m m' c) : Kt[Cert.KernelIdeal.main_v61] = Rv[Cert.ReferenceIdeal.main_v84] := by
  refine (unary_at (ops := tailOps) (x := Cert.KernelIdeal.main_cst_11) (y := Cert.KernelIdeal.main_v61) (hx := ⟨by decide, by rfl⟩) (hy := ⟨by decide, by rfl⟩) 36 (by decide) rfl (not_written tailW_are _ (by decide)) (not_written tailW_are _ (by decide))).trans
    (Eq.trans ?_ (unary_at (ops := refOps) (x := Cert.ReferenceIdeal.main_cst_18) (y := Cert.ReferenceIdeal.main_v84) (hx := ⟨by decide, by rfl⟩) (hy := ⟨by decide, by rfl⟩) 111 (by decide) rfl (not_written refW_are _ (by decide)) (not_written refW_are _ (by decide))).symm)
  rw [t_main_cst_11 m m' c hag] <;> rfl
theorem t_main_v62 (hag : Agree m m' c) : Kt[Cert.KernelIdeal.main_v62] = Rv[Cert.ReferenceIdeal.main_v85] := by
  refine (unary_at (ops := tailOps) (x := Cert.KernelIdeal.main_v6) (y := Cert.KernelIdeal.main_v62) (hx := ⟨by decide, by rfl⟩) (hy := ⟨by decide, by rfl⟩) 37 (by decide) rfl (not_written tailW_are _ (by decide)) (not_written tailW_are _ (by decide))).trans
    (Eq.trans ?_ (unary_at (ops := refOps) (x := Cert.ReferenceIdeal.main_v6) (y := Cert.ReferenceIdeal.main_v85) (hx := ⟨by decide, by rfl⟩) (hy := ⟨by decide, by rfl⟩) 112 (by decide) rfl (not_written refW_are _ (by decide)) (not_written refW_are _ (by decide))).symm)
  rw [t_in_main_v6 m m' c hag] <;> rfl
theorem t_main_v63 (hag : Agree m m' c) : Kt[Cert.KernelIdeal.main_v63] = Rv[Cert.ReferenceIdeal.main_v86] := by
  refine (ternary_at (ops := tailOps) (c := Cert.KernelIdeal.main_v61) (a := Cert.KernelIdeal.main_v62) (b := Cert.KernelIdeal.main_v60) (y := Cert.KernelIdeal.main_v63) (hc := ⟨by decide, by rfl⟩) (ha := ⟨by decide, by rfl⟩) (hb := ⟨by decide, by rfl⟩) (hy := ⟨by decide, by rfl⟩) 38 (by decide) rfl (not_written tailW_are _ (by decide)) (not_written tailW_are _ (by decide)) (not_written tailW_are _ (by decide)) (not_written tailW_are _ (by decide))).trans
    (Eq.trans ?_ (ternary_at (ops := refOps) (c := Cert.ReferenceIdeal.main_v84) (a := Cert.ReferenceIdeal.main_v85) (b := Cert.ReferenceIdeal.main_v83) (y := Cert.ReferenceIdeal.main_v86) (hc := ⟨by decide, by rfl⟩) (ha := ⟨by decide, by rfl⟩) (hb := ⟨by decide, by rfl⟩) (hy := ⟨by decide, by rfl⟩) 113 (by decide) rfl (not_written refW_are _ (by decide)) (not_written refW_are _ (by decide)) (not_written refW_are _ (by decide)) (not_written refW_are _ (by decide))).symm)
  rw [t_main_v61 m m' c hag, t_main_v62 m m' c hag, t_main_v60 m m' c hag] <;> rfl
theorem t_main_v64 (hag : Agree m m' c) : Kt[Cert.KernelIdeal.main_v64] = Rv[Cert.ReferenceIdeal.main_v87] := by
  refine (unary_at (ops := tailOps) (x := Cert.KernelIdeal.main_arg6) (y := Cert.KernelIdeal.main_v64) (hx := ⟨by decide, by rfl⟩) (hy := ⟨by decide, by rfl⟩) 39 (by decide) rfl (not_written tailW_are _ (by decide)) (not_written tailW_are _ (by decide))).trans
    (Eq.trans ?_ (unary_at (ops := refOps) (x := Cert.ReferenceIdeal.main_arg6) (y := Cert.ReferenceIdeal.main_v87) (hx := ⟨by decide, by rfl⟩) (hy := ⟨by decide, by rfl⟩) 114 (by decide) rfl (not_written refW_are _ (by decide)) (not_written refW_are _ (by decide))).symm)
  rw [t_in_main_arg6 m m' c hag] <;> rfl
theorem t_main_v65 (hag : Agree m m' c) : Kt[Cert.KernelIdeal.main_v65] = Rv[Cert.ReferenceIdeal.main_v88] := by
  refine (unary_at (ops := tailOps) (x := Cert.KernelIdeal.main_v64) (y := Cert.KernelIdeal.main_v65) (hx := ⟨by decide, by rfl⟩) (hy := ⟨by decide, by rfl⟩) 40 (by decide) rfl (not_written tailW_are _ (by decide)) (not_written tailW_are _ (by decide))).trans
    (Eq.trans ?_ (unary_at (ops := refOps) (x := Cert.ReferenceIdeal.main_v87) (y := Cert.ReferenceIdeal.main_v88) (hx := ⟨by decide, by rfl⟩) (hy := ⟨by decide, by rfl⟩) 115 (by decide) rfl (not_written refW_are _ (by decide)) (not_written refW_are _ (by decide))).symm)
  rw [t_main_v64 m m' c hag] <;> rfl
theorem t_main_v66 (hag : Agree m m' c) : Kt[Cert.KernelIdeal.main_v66] = Rv[Cert.ReferenceIdeal.main_v89] := by
  refine (binary_at (ops := tailOps) (a := Cert.KernelIdeal.main_v63) (b := Cert.KernelIdeal.main_v65) (y := Cert.KernelIdeal.main_v66) (ha := ⟨by decide, by rfl⟩) (hb := ⟨by decide, by rfl⟩) (hy := ⟨by decide, by rfl⟩) 41 (by decide) rfl (not_written tailW_are _ (by decide)) (not_written tailW_are _ (by decide)) (not_written tailW_are _ (by decide))).trans
    (Eq.trans ?_ (binary_at (ops := refOps) (a := Cert.ReferenceIdeal.main_v86) (b := Cert.ReferenceIdeal.main_v88) (y := Cert.ReferenceIdeal.main_v89) (ha := ⟨by decide, by rfl⟩) (hb := ⟨by decide, by rfl⟩) (hy := ⟨by decide, by rfl⟩) 116 (by decide) rfl (not_written refW_are _ (by decide)) (not_written refW_are _ (by decide)) (not_written refW_are _ (by decide))).symm)
  rw [t_main_v63 m m' c hag, t_main_v65 m m' c hag] <;> rfl
theorem t_main_call2_cst (hag : Agree m m' c) : Kt[Cert.KernelIdeal.main_call2_cst] = Rv[Cert.ReferenceIdeal.main_call3_cst] := by
  refine (nullary_at (ops := tailOps) (y := Cert.KernelIdeal.main_call2_cst) (hy := ⟨by decide, by rfl⟩) 42 (by decide) rfl (not_written tailW_are _ (by decide))).trans
    (Eq.trans ?_ (nullary_at (ops := refOps) (y := Cert.ReferenceIdeal.main_call3_cst) (hy := ⟨by decide, by rfl⟩) 117 (by decide) rfl (not_written refW_are _ (by decide))).symm)
  rfl
theorem t_main_call2_v0 (hag : Agree m m' c) : Kt[Cert.KernelIdeal.main_call2_v0] = Rv[Cert.ReferenceIdeal.main_call3_v0] := by
  refine (binary_at (ops := tailOps) (a := Cert.KernelIdeal.main_v66) (b := Cert.KernelIdeal.main_call2_cst) (y := Cert.KernelIdeal.main_call2_v0) (ha := ⟨by decide, by rfl⟩) (hb := ⟨by decide, by rfl⟩) (hy := ⟨by decide, by rfl⟩) 43 (by decide) rfl (not_written tailW_are _ (by decide)) (not_written tailW_are _ (by decide)) (not_written tailW_are _ (by decide))).trans
    (Eq.trans ?_ (binary_at (ops := refOps) (a := Cert.ReferenceIdeal.main_v89) (b := Cert.ReferenceIdeal.main_call3_cst) (y := Cert.ReferenceIdeal.main_call3_v0) (ha := ⟨by decide, by rfl⟩) (hb := ⟨by decide, by rfl⟩) (hy := ⟨by decide, by rfl⟩) 118 (by decide) rfl (not_written refW_are _ (by decide)) (not_written refW_are _ (by decide)) (not_written refW_are _ (by decide))).symm)
  rw [t_main_v66 m m' c hag, t_main_call2_cst m m' c hag] <;> rfl
theorem t_main_call2_cst_0 (hag : Agree m m' c) : Kt[Cert.KernelIdeal.main_call2_cst_0] = Rv[Cert.ReferenceIdeal.main_call3_cst_0] := by
  refine (nullary_at (ops := tailOps) (y := Cert.KernelIdeal.main_call2_cst_0) (hy := ⟨by decide, by rfl⟩) 44 (by decide) rfl (not_written tailW_are _ (by decide))).trans
    (Eq.trans ?_ (nullary_at (ops := refOps) (y := Cert.ReferenceIdeal.main_call3_cst_0) (hy := ⟨by decide, by rfl⟩) 119 (by decide) rfl (not_written refW_are _ (by decide))).symm)
  rfl
theorem t_main_call2_v1 (hag : Agree m m' c) : Kt[Cert.KernelIdeal.main_call2_v1] = Rv[Cert.ReferenceIdeal.main_call3_v1] := by
  refine (unary_at (ops := tailOps) (x := Cert.KernelIdeal.main_call2_cst_0) (y := Cert.KernelIdeal.main_call2_v1) (hx := ⟨by decide, by rfl⟩) (hy := ⟨by decide, by rfl⟩) 45 (by decide) rfl (not_written tailW_are _ (by decide)) (not_written tailW_are _ (by decide))).trans
    (Eq.trans ?_ (unary_at (ops := refOps) (x := Cert.ReferenceIdeal.main_call3_cst_0) (y := Cert.ReferenceIdeal.main_call3_v1) (hx := ⟨by decide, by rfl⟩) (hy := ⟨by decide, by rfl⟩) 120 (by decide) rfl (not_written refW_are _ (by decide)) (not_written refW_are _ (by decide))).symm)
  rw [t_main_call2_cst_0 m m' c hag] <;> rfl
theorem t_main_call2_v2 (hag : Agree m m' c) : Kt[Cert.KernelIdeal.main_call2_v2] = Rv[Cert.ReferenceIdeal.main_call3_v2] := by
  refine (binary_at (ops := tailOps) (a := Cert.KernelIdeal.main_call2_v1) (b := Cert.KernelIdeal.main_call2_v0) (y := Cert.KernelIdeal.main_call2_v2) (ha := ⟨by decide, by rfl⟩) (hb := ⟨by decide, by rfl⟩) (hy := ⟨by decide, by rfl⟩) 46 (by decide) rfl (not_written tailW_are _ (by decide)) (not_written tailW_are _ (by decide)) (not_written tailW_are _ (by decide))).trans
    (Eq.trans ?_ (binary_at (ops := refOps) (a := Cert.ReferenceIdeal.main_call3_v1) (b := Cert.ReferenceIdeal.main_call3_v0) (y := Cert.ReferenceIdeal.main_call3_v2) (ha := ⟨by decide, by rfl⟩) (hb := ⟨by decide, by rfl⟩) (hy := ⟨by decide, by rfl⟩) 121 (by decide) rfl (not_written refW_are _ (by decide)) (not_written refW_are _ (by decide)) (not_written refW_are _ (by decide))).symm)
  rw [t_main_call2_v1 m m' c hag, t_main_call2_v0 m m' c hag] <;> rfl
theorem t_main_call2_v3 (hag : Agree m m' c) : Kt[Cert.KernelIdeal.main_call2_v3] = Rv[Cert.ReferenceIdeal.main_call3_v3] := by
  refine (unary_at (ops := tailOps) (x := Cert.KernelIdeal.main_call2_v2) (y := Cert.KernelIdeal.main_call2_v3) (hx := ⟨by decide, by rfl⟩) (hy := ⟨by decide, by rfl⟩) 47 (by decide) rfl (not_written tailW_are _ (by decide)) (not_written tailW_are _ (by decide))).trans
    (Eq.trans ?_ (unary_at (ops := refOps) (x := Cert.ReferenceIdeal.main_call3_v2) (y := Cert.ReferenceIdeal.main_call3_v3) (hx := ⟨by decide, by rfl⟩) (hy := ⟨by decide, by rfl⟩) 122 (by decide) rfl (not_written refW_are _ (by decide)) (not_written refW_are _ (by decide))).symm)
  rw [t_main_call2_v2 m m' c hag] <;> rfl
theorem t_main_call2_v4 (hag : Agree m m' c) : Kt[Cert.KernelIdeal.main_call2_v4] = Rv[Cert.ReferenceIdeal.main_call3_v4] := by
  refine (unary_at (ops := tailOps) (x := Cert.KernelIdeal.main_call2_v3) (y := Cert.KernelIdeal.main_call2_v4) (hx := ⟨by decide, by rfl⟩) (hy := ⟨by decide, by rfl⟩) 48 (by decide) rfl (not_written tailW_are _ (by decide)) (not_written tailW_are _ (by decide))).trans
    (Eq.trans ?_ (unary_at (ops := refOps) (x := Cert.ReferenceIdeal.main_call3_v3) (y := Cert.ReferenceIdeal.main_call3_v4) (hx := ⟨by decide, by rfl⟩) (hy := ⟨by decide, by rfl⟩) 123 (by decide) rfl (not_written refW_are _ (by decide)) (not_written refW_are _ (by decide))).symm)
  rw [t_main_call2_v3 m m' c hag] <;> rfl
theorem t_main_call2_v5 (hag : Agree m m' c) : Kt[Cert.KernelIdeal.main_call2_v5] = Rv[Cert.ReferenceIdeal.main_call3_v5] := by
  refine (binary_at (ops := tailOps) (a := Cert.KernelIdeal.main_v66) (b := Cert.KernelIdeal.main_call2_v4) (y := Cert.KernelIdeal.main_call2_v5) (ha := ⟨by decide, by rfl⟩) (hb := ⟨by decide, by rfl⟩) (hy := ⟨by decide, by rfl⟩) 49 (by decide) rfl (not_written tailW_are _ (by decide)) (not_written tailW_are _ (by decide)) (not_written tailW_are _ (by decide))).trans
    (Eq.trans ?_ (binary_at (ops := refOps) (a := Cert.ReferenceIdeal.main_v89) (b := Cert.ReferenceIdeal.main_call3_v4) (y := Cert.ReferenceIdeal.main_call3_v5) (ha := ⟨by decide, by rfl⟩) (hb := ⟨by decide, by rfl⟩) (hy := ⟨by decide, by rfl⟩) 124 (by decide) rfl (not_written refW_are _ (by decide)) (not_written refW_are _ (by decide)) (not_written refW_are _ (by decide))).symm)
  rw [t_main_v66 m m' c hag, t_main_call2_v4 m m' c hag] <;> rfl
theorem t_main_call2_v6 (hag : Agree m m' c) : Kt[Cert.KernelIdeal.main_call2_v6] = Rv[Cert.ReferenceIdeal.main_call3_v6] := by
  refine (unary_at (ops := tailOps) (x := Cert.KernelIdeal.main_call2_v5) (y := Cert.KernelIdeal.main_call2_v6) (hx := ⟨by decide, by rfl⟩) (hy := ⟨by decide, by rfl⟩) 50 (by decide) rfl (not_written tailW_are _ (by decide)) (not_written tailW_are _ (by decide))).trans
    (Eq.trans ?_ (unary_at (ops := refOps) (x := Cert.ReferenceIdeal.main_call3_v5) (y := Cert.ReferenceIdeal.main_call3_v6) (hx := ⟨by decide, by rfl⟩) (hy := ⟨by decide, by rfl⟩) 125 (by decide) rfl (not_written refW_are _ (by decide)) (not_written refW_are _ (by decide))).symm)
  rw [t_main_call2_v5 m m' c hag] <;> rfl
theorem t_main_call2_cst_1 (hag : Agree m m' c) : Kt[Cert.KernelIdeal.main_call2_cst_1] = Rv[Cert.ReferenceIdeal.main_call3_cst_1] := by
  refine (nullary_at (ops := tailOps) (y := Cert.KernelIdeal.main_call2_cst_1) (hy := ⟨by decide, by rfl⟩) 51 (by decide) rfl (not_written tailW_are _ (by decide))).trans
    (Eq.trans ?_ (nullary_at (ops := refOps) (y := Cert.ReferenceIdeal.main_call3_cst_1) (hy := ⟨by decide, by rfl⟩) 126 (by decide) rfl (not_written refW_are _ (by decide))).symm)
  rfl
theorem t_main_call2_v7 (hag : Agree m m' c) : Kt[Cert.KernelIdeal.main_call2_v7] = Rv[Cert.ReferenceIdeal.main_call3_v7] := by
  refine (binary_at (ops := tailOps) (a := Cert.KernelIdeal.main_call2_v6) (b := Cert.KernelIdeal.main_call2_cst_1) (y := Cert.KernelIdeal.main_call2_v7) (ha := ⟨by decide, by rfl⟩) (hb := ⟨by decide, by rfl⟩) (hy := ⟨by decide, by rfl⟩) 52 (by decide) rfl (not_written tailW_are _ (by decide)) (not_written tailW_are _ (by decide)) (not_written tailW_are _ (by decide))).trans
    (Eq.trans ?_ (binary_at (ops := refOps) (a := Cert.ReferenceIdeal.main_call3_v6) (b := Cert.ReferenceIdeal.main_call3_cst_1) (y := Cert.ReferenceIdeal.main_call3_v7) (ha := ⟨by decide, by rfl⟩) (hb := ⟨by decide, by rfl⟩) (hy := ⟨by decide, by rfl⟩) 127 (by decide) rfl (not_written refW_are _ (by decide)) (not_written refW_are _ (by decide)) (not_written refW_are _ (by decide))).symm)
  rw [t_main_call2_v6 m m' c hag, t_main_call2_cst_1 m m' c hag] <;> rfl
theorem t_main_call2_v8 (hag : Agree m m' c) : Kt[Cert.KernelIdeal.main_call2_v8] = Rv[Cert.ReferenceIdeal.main_call3_v8] := by
  refine (unary_at (ops := tailOps) (x := Cert.KernelIdeal.main_call2_v7) (y := Cert.KernelIdeal.main_call2_v8) (hx := ⟨by decide, by rfl⟩) (hy := ⟨by decide, by rfl⟩) 53 (by decide) rfl (not_written tailW_are _ (by decide)) (not_written tailW_are _ (by decide))).trans
    (Eq.trans ?_ (unary_at (ops := refOps) (x := Cert.ReferenceIdeal.main_call3_v7) (y := Cert.ReferenceIdeal.main_call3_v8) (hx := ⟨by decide, by rfl⟩) (hy := ⟨by decide, by rfl⟩) 128 (by decide) rfl (not_written refW_are _ (by decide)) (not_written refW_are _ (by decide))).symm)
  rw [t_main_call2_v7 m m' c hag] <;> rfl
theorem t_main_call2_v9 (hag : Agree m m' c) : Kt[Cert.KernelIdeal.main_call2_v9] = Rv[Cert.ReferenceIdeal.main_call3_v9] := by
  refine (unary_at (ops := tailOps) (x := Cert.KernelIdeal.main_call2_v8) (y := Cert.KernelIdeal.main_call2_v9) (hx := ⟨by decide, by rfl⟩) (hy := ⟨by decide, by rfl⟩) 54 (by decide) rfl (not_written tailW_are _ (by decide)) (not_written tailW_are _ (by decide))).trans
    (Eq.trans ?_ (unary_at (ops := refOps) (x := Cert.ReferenceIdeal.main_call3_v8) (y := Cert.ReferenceIdeal.main_call3_v9) (hx := ⟨by decide, by rfl⟩) (hy := ⟨by decide, by rfl⟩) 129 (by decide) rfl (not_written refW_are _ (by decide)) (not_written refW_are _ (by decide))).symm)
  rw [t_main_call2_v8 m m' c hag] <;> rfl
theorem t_main_call2_v10 (hag : Agree m m' c) : Kt[Cert.KernelIdeal.main_call2_v10] = Rv[Cert.ReferenceIdeal.main_call3_v10] := by
  refine (unary_at (ops := tailOps) (x := Cert.KernelIdeal.main_call2_v9) (y := Cert.KernelIdeal.main_call2_v10) (hx := ⟨by decide, by rfl⟩) (hy := ⟨by decide, by rfl⟩) 55 (by decide) rfl (not_written tailW_are _ (by decide)) (not_written tailW_are _ (by decide))).trans
    (Eq.trans ?_ (unary_at (ops := refOps) (x := Cert.ReferenceIdeal.main_call3_v9) (y := Cert.ReferenceIdeal.main_call3_v10) (hx := ⟨by decide, by rfl⟩) (hy := ⟨by decide, by rfl⟩) 130 (by decide) rfl (not_written refW_are _ (by decide)) (not_written refW_are _ (by decide))).symm)
  rw [t_main_call2_v9 m m' c hag] <;> rfl
theorem t_main_v67 (hag : Agree m m' c) : Kt[Cert.KernelIdeal.main_v67] = Rv[Cert.ReferenceIdeal.main_v90] := by
  refine (binary_at (ops := tailOps) (a := Cert.KernelIdeal.main_call2_v5) (b := Cert.KernelIdeal.main_call2_v10) (y := Cert.KernelIdeal.main_v67) (ha := ⟨by decide, by rfl⟩) (hb := ⟨by decide, by rfl⟩) (hy := ⟨by decide, by rfl⟩) 56 (by decide) rfl (not_written tailW_are _ (by decide)) (not_written tailW_are _ (by decide)) (not_written tailW_are _ (by decide))).trans
    (Eq.trans ?_ (binary_at (ops := refOps) (a := Cert.ReferenceIdeal.main_call3_v5) (b := Cert.ReferenceIdeal.main_call3_v10) (y := Cert.ReferenceIdeal.main_v90) (ha := ⟨by decide, by rfl⟩) (hb := ⟨by decide, by rfl⟩) (hy := ⟨by decide, by rfl⟩) 131 (by decide) rfl (not_written refW_are _ (by decide)) (not_written refW_are _ (by decide)) (not_written refW_are _ (by decide))).symm)
  rw [t_main_call2_v5 m m' c hag, t_main_call2_v10 m m' c hag] <;> rfl

end Cert.Proof.Lines

end
-- ==== Proof.lean ====
/-
  A two-layer graph convolution with log-softmax, against its plain reference, as extended reals.

  Both programs compute, from node features x, an edge list with weights, and the layers' parameters,
      log_softmax( Â · relu( Â · (x·W1) + b1 ) · W2 + b2 ),   Â = D^(-1/2) (A + I) D^(-1/2) with edge weights,
  spelt as gathers at the edges' sources, products with the edge normalisation, and scatter-adds at the targets. The kernel's
  program computes the first dense product x·W1 in a grid of twenty row blocks (operands rounded to bf16, which is the
  identity on extended reals; each block's product a plain sum of products) and the edge normalisation once; the reference
  computes x·W1 as one host product and the normalisation once per layer. Everything else is the same sequence of host
  operations. So the proof is:
    · the region's result array holds the host product x·W1 of the arguments (Product);
    · operation by operation, each buffer of the kernel's two host lines holds what its counterpart in the reference's line
      holds, the kernel's one normalisation equal to both of the reference's (StepsA, StepsB, StepsT over Lines and
      LibStraightLine) — no algebraic law is needed, and the finiteness of the inputs is never used;
    · hence the results agree: the common value is the reference's output buffer after its line.
  The three frames: the kernel's two from its frame certificate (FrameKernel, FrameKernelIdeal), the reference's from the run of
  its line (RefLine), the arguments being buffers no operation writes. The idealization rewrote nothing, so `preserves` is trivial.
-/
import proofs.«164817_j62955630625290_2_alg».proof.Defs
import proofs.«164817_j62955630625290_2_alg».proof.Proof.Gen.Kernel
import proofs.«164817_j62955630625290_2_alg».proof.Proof.Gen.KernelIdeal
import proofs.«164817_j62955630625290_2_alg».proof.Proof.Gen.ReferenceIdeal
import proofs.«164817_j62955630625290_2_alg».proof.Proof.Gen.Pre_finite_inputs
import proofs.«164817_j62955630625290_2_alg».proof.Proof.FrameKernel
import proofs.«164817_j62955630625290_2_alg».proof.Proof.FrameKernelIdeal
import proofs.«164817_j62955630625290_2_alg».proof.Proof.RefLine
import proofs.«164817_j62955630625290_2_alg».proof.Proof.Lines
import proofs.«164817_j62955630625290_2_alg».proof.Proof.Product
import proofs.«164817_j62955630625290_2_alg».proof.Proof.StepsA
import proofs.«164817_j62955630625290_2_alg».proof.Proof.StepsB
import proofs.«164817_j62955630625290_2_alg».proof.Proof.StepsT
import Idealize.ShloMosaic.Adequacy
import Idealize.ShloMosaic.Init

noncomputable section

namespace Cert.Proof

open Idealize.ShloMosaic Idealize.ShloMosaic.TcCoe Idealize.SL.Sem Idealize.ShloMosaic.StableHlo

theorem frame_kernel : Cert.frame_Kernel := fun m ρ _ => Cert.Kernel.GenP.frame m ρ

theorem frame_kernelIdeal : Cert.frame_KernelIdeal := fun m ρ _ => Cert.KernelIdeal.GenP.frame m ρ

/-- The reference's line writes none of its arguments: they end as launched. -/
theorem frame_referenceIdeal : Cert.frame_ReferenceIdeal := fun m ρ _ =>
  (θ_run Cert.ReferenceIdeal.defs _ _).mono (fun _ h c =>
    ⟨(h c Cert.ReferenceIdeal.main_arg0).trans (Lines.ref_launch m c _ (by decide)),
     (h c Cert.ReferenceIdeal.main_arg1).trans (Lines.ref_launch m c _ (by decide)),
     (h c Cert.ReferenceIdeal.main_arg2).trans (Lines.ref_launch m c _ (by decide)),
     (h c Cert.ReferenceIdeal.main_arg3).trans (Lines.ref_launch m c _ (by decide)),
     (h c Cert.ReferenceIdeal.main_arg4).trans (Lines.ref_launch m c _ (by decide)),
     (h c Cert.ReferenceIdeal.main_arg5).trans (Lines.ref_launch m c _ (by decide)),
     (h c Cert.ReferenceIdeal.main_arg6).trans (Lines.ref_launch m c _ (by decide))⟩)
    (Cert.ReferenceIdeal.ValueP.line (F := Ideal) m ρ)

theorem preserves : Cert.preserves_Kernel_KernelIdeal := trivial

/-- Both runs end with the reference's output buffer after its line: the reference by its run, the kernel because its output
    buffer after its second line holds the same array (the last of the operation-by-operation equations). -/
theorem algebraic : Cert.algebraic_KernelIdeal_ReferenceIdeal := by
  intro m ρ m' ρ' _ hagree
  refine ⟨fun c => after Lines.refOps (launchContents m' c) (Proc.devRef .tc Cert.ReferenceIdeal.main_v90), ?_, ?_⟩
  · refine (θ_run Cert.KernelIdeal.defs _ _).mono (fun _ h c => ?_) (Cert.KernelIdeal.GenP.run_main m ρ)
    have hag : Lines.Agree m m' c :=
      ⟨(hagree c).1, (hagree c).2.1, (hagree c).2.2.1, (hagree c).2.2.2.1, (hagree c).2.2.2.2.1, (hagree c).2.2.2.2.2.1, (hagree c).2.2.2.2.2.2⟩
    exact ⟨(((h c).2 Cert.KernelIdeal.main_v67 (Pipeline.mem_restRefs_of Cert.KernelIdeal.main_v67 (by decide) (by decide))).trans
        (Lines.tail_eq m c _)).trans (Lines.t_main_v67 m m' c hag),
      ((h c).1 0).trans (((Cert.KernelIdeal.GenP.dats m 0 c).arrAt_in 0 rfl _).trans ((Cert.KernelIdeal.GenP.A_eq m c 0).trans (Cert.KernelIdeal.GenP.V_main_arg0 m c))),
      ((h c).2 Cert.KernelIdeal.main_arg1 (Pipeline.mem_restRefs_of Cert.KernelIdeal.main_arg1 (by decide) (by decide))).trans (Cert.KernelIdeal.GenP.W_main_arg1 m (Cert.KernelIdeal.GenP.dats m) c),
      ((h c).2 Cert.KernelIdeal.main_arg2 (Pipeline.mem_restRefs_of Cert.KernelIdeal.main_arg2 (by decide) (by decide))).trans (Cert.KernelIdeal.GenP.W_main_arg2 m (Cert.KernelIdeal.GenP.dats m) c),
      ((h c).1 1).trans (((Cert.KernelIdeal.GenP.dats m 0 c).arrAt_in 1 rfl _).trans ((Cert.KernelIdeal.GenP.A_eq m c 1).trans (Cert.KernelIdeal.GenP.V_main_arg3 m c))),
      ((h c).2 Cert.KernelIdeal.main_arg4 (Pipeline.mem_restRefs_of Cert.KernelIdeal.main_arg4 (by decide) (by decide))).trans (Cert.KernelIdeal.GenP.W_main_arg4 m (Cert.KernelIdeal.GenP.dats m) c),
      ((h c).2 Cert.KernelIdeal.main_arg5 (Pipeline.mem_restRefs_of Cert.KernelIdeal.main_arg5 (by decide) (by decide))).trans (Cert.KernelIdeal.GenP.W_main_arg5 m (Cert.KernelIdeal.GenP.dats m) c),
      ((h c).2 Cert.KernelIdeal.main_arg6 (Pipeline.mem_restRefs_of Cert.KernelIdeal.main_arg6 (by decide) (by decide))).trans (Cert.KernelIdeal.GenP.W_main_arg6 m (Cert.KernelIdeal.GenP.dats m) c)⟩
  · exact (θ_run Cert.ReferenceIdeal.defs _ _).mono (fun _ h c =>
      ⟨h c Cert.ReferenceIdeal.main_v90,
       (h c Cert.ReferenceIdeal.main_arg0).trans (Lines.ref_launch m' c _ (by decide)),
       (h c Cert.ReferenceIdeal.main_arg1).trans (Lines.ref_launch m' c _ (by decide)),
       (h c Cert.ReferenceIdeal.main_arg2).trans (Lines.ref_launch m' c _ (by decide)),
       (h c Cert.ReferenceIdeal.main_arg3).trans (Lines.ref_launch m' c _ (by decide)),
       (h c Cert.ReferenceIdeal.main_arg4).trans (Lines.ref_launch m' c _ (by decide)),
       (h c Cert.ReferenceIdeal.main_arg5).trans (Lines.ref_launch m' c _ (by decide)),
       (h c Cert.ReferenceIdeal.main_arg6).trans (Lines.ref_launch m' c _ (by decide))⟩)
      (Cert.ReferenceIdeal.ValueP.line (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
